-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S_ : Shape := ⟨0, ![]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S8192x1024, .bf16⟩
  | .hbm, ⟨9, _⟩ => ⟨S8192x1024, .bf16⟩
  | .hbm, ⟨10, _⟩ => ⟨S2x1024x1024, .f32⟩
  | .hbm, ⟨11, _⟩ => ⟨S_, .f32⟩
  | .hbm, ⟨12, _⟩ => ⟨S1024x1024, .f32⟩
  | .hbm, ⟨13, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reducesTo_S2x1024x1024_S1024x1024_d0 : S2x1024x1024.ReducesTo [0] S1024x1024
  h_S_ : 0 < S_.numel
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S2x1024x1024.size a
  hwx1_2 : ∀ i : grid1.Coords, EltTy.bits .f32 = 32 ∨ (Rect.block (s := S2x1024x1024) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .f32 = 32 ∨ (Rect.block (s := S1024x1024) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x8192, .f32⟩
  | .hbm, ⟨8, _⟩ => ⟨S8192x8192, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x1024_S1024x8192_1_0 : S8192x1024.Transposes [1, 0] S1024x8192
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Data0.lean ====
/-
  The first kernel region (the joint K and V projection), its data.

  The region walks the 8192 rows of the input in 8 blocks of 1024 rows. At a block it is handed the block of x and the
  two whole weights, and leaves in its two output buffers the block's rows of x·wk and of x·wv, each one matrix
  product into a zero accumulator, rounded to the narrow format on the way out. Stated here: each window's block at a
  grid point read off the arrays as the region finds them, what the body leaves in each output buffer as a function of
  the input blocks, and the region's proof data (arrays as found; inputs handed back as they came; nothing kept
  between points beyond what every kernel may use).
-/
import proofs.«107815_j68736656605705_2_alg».proof.Proof.Gen.Kernel.Launch
import proofs.«107815_j68736656605705_2_alg».proof.Proof.Gen.Kernel.Skeleton
import proofs.«107815_j68736656605705_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body goes through: the whole 1024 × 1024 buffer. -/
abbrev rW0 : Rect S1024x1024 := Rect.unit (s := S1024x1024) ![0, 0] S1024x1024.size inb_S1024x1024_S1024x1024_0_0

/-- The K output's buffer after the body: one store of (block of x)·wk over the whole buffer. -/
def out0_3 (x0 x1 : Vec F S1024x1024 .bf16) : Vec F S1024x1024 .bf16 :=
  View.canon [⟨rW0, k0_pay2 (View.ld x0 rW0) (View.ld x1 rW0)⟩]

/-- The V output's buffer after the body: one store of (block of x)·wv over the whole buffer. -/
def out0_4 (x0 x2 : Vec F S1024x1024 .bf16) : Vec F S1024x1024 .bf16 :=
  View.canon [⟨rW0, k0_pay3 (View.ld x0 rW0) (View.ld x2 rW0)⟩]

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

end Cert.Kernel.Hand

end
-- ==== Proof.K.Body0.lean ====
/-
  The first kernel region (the joint K and V projection), its body at a grid point.

  At every point the body reads the block of x and the two whole weights, and overwrites each of its two output
  buffers, whole, with one product. Proved here: each input buffer holds its block when the body starts; the body,
  run on buffers holding x0, x1, x2 and any two output buffers, ends with the inputs untouched and the outputs at
  `out0_3 x0 x1` and `out0_4 x0 x2`; hence the obligation the pipeline asks of the body at every point.
-/
import proofs.«107815_j68736656605705_2_alg».proof.Proof.K.Data0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The input buffers hold their blocks -/

/-- Input window 0: whatever proof data has the region's array (`hA`) and a body that leaves the block where it
    found it (`hafter`), the buffer the body is handed at a point holds that point's block, whether or not the block was
    brought in at that very point: when it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has the region's array (`hA`) and a body that leaves the block where it
    found it (`hafter`), the buffer the body is handed at a point holds that point's block, whether or not the block was
    brought in at that very point: when it was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has the region's array (`hA`) and a body that leaves the block where it
    found it (`hafter`), the buffer the body is handed at a point holds that point's block, whether or not the block was
    brought in at that very point: when it was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## One whole-buffer store covers the buffer -/

/-- Every index of the K output buffer lies in the one rectangle stored. -/
theorem cover0_3 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-- Every index of the V output buffer lies in the one rectangle stored. -/
theorem cover0_4 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-! ## The body on five buffers -/

set_option maxHeartbeats 1000000 in
/-- The body, run on five whole buffers — the inputs holding `x0`, `x1`, `x2`, the outputs holding anything —, ends with
    the inputs as they were and the outputs at `out0_3 x0 x1` and `out0_4 x0 x2`: it reads each input once, reads each
    output once without using what it read, and stores one product over the whole of each output, so what an output
    holds afterwards is that one store (`cover0_3`, `cover0_4`). The grid coordinate is not used. -/
theorem sound_kernel0 (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole)
    (x0 : Vec F S1024x1024 .bf16) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__kv_proj_kernel i arg1 harg1 arg2 harg2 arg3 harg3 arg4 harg4 arg5 harg5) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The obligation at a grid point -/

/-- What the body is handed at point `t`: the region's invariant, what is owed, and each window's current buffer,
    whole, at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks (`before0_W`), so `sound_kernel0` applies at those
    blocks; the invariant and the debts are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Runs1.lean ====
/-
  The second kernel region (kᵀv, half by half), what its three cases share.

  The region's grid is 2 × 4: the outer coordinate is the half of the rows, the inner one the block of 1024 rows within
  the half. At a point the body is handed the point's block of K and of V; it keeps a [1024, 1024] accumulator in a
  buffer of its own across the four points of a half: zeroed at the half's first point, the block's Kᵀ·V added at
  every point, copied to the half's output block at the half's last point. So a point is in one of three cases —
  first of its half (zero, then add), middle (add), last (add, then copy out) — decided by the inner coordinate alone.
  Stated here: each window's block at a point; the two conditions in closed form over the grid; where the output
  window is idle; the names of the buffers the body is called with; and the region's invariant taken apart into the
  accumulator, the other scoped buffers, and the generator register.
-/
import proofs.«107815_j68736656605705_2_alg».proof.Proof.Gen.Kernel.Launch
import proofs.«107815_j68736656605705_2_alg».proof.Proof.Gen.Kernel.Skeleton
import proofs.«107815_j68736656605705_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The K window's current buffer holds its block at every point, for any proof data whose array is the entry
    contents and whose body hands the block back. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the V window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions -/

/-- "This is the half's first block": the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the half's last block": the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from a half's last block nothing is stored into the output window, and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a half's last block the output window is live. -/
theorem liveAt1_2_C : ∀ t : Fin cfg1.N, ¬cond1_0 (grid1.coords t) → cond1_1 (grid1.coords t) → cfg1.idle 2 (grid1.coords t) = false := by decide +kernel

/-! ## The buffers the body is called with -/

/-- One buffer of the output window, through which its contents are stated. -/
abbrev VO1_2 : View sig .tc .vmem S1x1024x1024 .f32 := (Memref.whole cc1_stg2_0 : Memref sig .tc .vmem S1x1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S1024x1024 .f32 := Memref.whole cc1_scratch0
abbrev VS1_0 : View sig .tc .vmem S1024x1024 .f32 := scM1_0.view

/-! ## The invariant taken apart -/

/-- The core's scoped buffers other than this region's windows' and the accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What every kernel region may use and need not describe, with the accumulator split off. -/
theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨H1, H2, H3, H4, H5, H6, H7, H8, H9, H10, H11, H12, H13, H14, H15⟩, Hg⟩
  isplitl [H9]; · iexact H9
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iexact H15

/-- … and put back. -/
theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]; simp only [scM1_0, owns_whole]
  iintro ⟨H9, ⟨H1, H2, H3, H4, H5, H6, H7, H8, H10, H11, H12, H13, H14, H15⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Kernel.Hand

end
-- ==== Proof.K.Run1A.lean ====
/-
  The second kernel region at the first block of a half: the accumulator, whatever it held, is overwritten with
  zeros and then with zeros plus the block's Kᵀ·V; nothing is stored into the output window, whose buffer is handed
  back as it came. The body's run is stated with the list of pieces the accumulator ends written with left for the
  run itself to determine (last store first).
-/
import proofs.«107815_j68736656605705_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a half's first block, on whole buffers: the K and V blocks at their contents, the output buffer at
    contents it hands back untouched, the accumulator at anything; it ends with the inputs and the output buffer as
    they were and the accumulator written with the pieces `LS0`. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨[], ?_, fun xi2 E K => ?run⟩
  case run =>
    simp only [cc1__ktv_kernel_eq_skeleton]; unfold cc1__ktv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Run1B.lean ====
/-
  The second kernel region at a middle block of a half: the block's Kᵀ·V is added to what the accumulator held;
  nothing is stored into the output window, whose buffer is handed back as it came.
-/
import proofs.«107815_j68736656605705_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a half's middle block, on whole buffers: the K and V blocks at their contents, the output buffer at
    contents it hands back untouched, the accumulator at what the block before left (`xs0`); it ends with the inputs
    and the output buffer as they were and the accumulator written with the pieces `LS0`. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨[], ?_, fun xi2 E K => ?run⟩
  case run =>
    simp only [cc1__ktv_kernel_eq_skeleton]; unfold cc1__ktv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Run1C.lean ====
/-
  The second kernel region at the last block of a half: the block's Kᵀ·V is added to what the accumulator held,
  and the accumulator is then copied, as a [1, 1024, 1024] slab, over the whole output buffer.
-/
import proofs.«107815_j68736656605705_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a half's last block, on whole buffers: the K and V blocks at their contents, the output buffer at
    anything, the accumulator at what the block before left (`xs0`); it ends with the inputs as they were, the
    output buffer written with the pieces `L2` and the accumulator with the pieces `LS0`. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) :
    Σ' (L2 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨?_, ?_, fun E K => ?run⟩
  case run =>
    simp only [cc1__ktv_kernel_eq_skeleton]; unfold cc1__ktv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Region1.lean ====
/-
  The second kernel region (kᵀv, half by half): what it leaves, point by point, and its body obligation.

  What a point leaves in the accumulator depends on what the point before left there (except at the first block of a
  half, which starts from zeros), so the contents after each point are defined by recursion on the point: the point's
  case — first, middle or last block of its half — run on the point's blocks of K and V and, for a middle or last
  block, on the accumulator as the point before left it. The output window holds something only after a half's last
  block, where the accumulator is copied out; that is also the only place its block is written back. The region's
  invariant before a point is: the accumulator at what the point before left (anything, before the first point), the
  other scoped buffers and the generator register untouched.
-/
import proofs.«107815_j68736656605705_2_alg».proof.Proof.K.Run1A
import proofs.«107815_j68736656605705_2_alg».proof.Proof.K.Run1B
import proofs.«107815_j68736656605705_2_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## What each case leaves -/

/-- First block of a half: nothing is stored into the output window (a placeholder nothing consults). -/
def out1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) : Vec F S1x1024x1024 .f32 :=
  VO1_2.read (Elt F) (VO1_2.writes (Elt F) VO1_2.junk (kernelRun1_A c i arg2 harg2 arg3 harg3 arg4 harg4 arg5 harg5 hc0 hc1 x0 x1).1)

/-- First block of a half: the accumulator's pieces cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) (y : S1024x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1024.size (by sl_kernel_rfl) y

/-- First block of a half: what the accumulator holds afterwards. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg2 harg2 arg3 harg3 arg4 harg4 arg5 harg5 hc0 hc1 x0 x1).2.1)

/-- Middle block: nothing is stored into the output window (a placeholder nothing consults). -/
def out1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) : Vec F S1x1024x1024 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1024.size (by sl_kernel_rfl) y

/-- Middle block: what the accumulator holds afterwards. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg2 harg2 arg3 harg3 arg4 harg4 arg5 harg5 hc0 hc1 x0 x1 xs0).2.1)

/-- Last block of a half: the output window's pieces cover its block. -/
theorem cover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) (y : S1x1024x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1024x1024.size (by sl_kernel_rfl) y

/-- Last block of a half: what the output window's buffer holds afterwards. -/
def out1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) : Vec F S1x1024x1024 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1024.size (by sl_kernel_rfl) y

/-- Last block of a half: what the accumulator holds afterwards. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output window's buffer and the accumulator hold after the body at position `n`: the case the inner
    coordinate selects, run on the point's blocks and, past a half's first block, on what position `n - 1` left in
    the accumulator. -/
def outsAt1 (c : Dev nD) : (n : ℕ) → n < cfg1.N → Vec F S1x1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what every region may use; afterwards the accumulator at what the
    point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ others1 c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ others1 c ∗ (∃ r, prngReg c r)) := by
  cases n with
  | zero => exact absurd rfl hz
  | succ n => rfl

/-! ## The proof data -/

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inner coordinate says which case the point is in; the invariant hands the body the
    accumulator at what the point before left (at anything at a half's first block) and takes it back at this
    point's contents; the other scoped buffers, the generator register and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      rw [PhiS1_castSucc V c t]
      have hΦ : PhiS1 V c t.val (Nat.le_of_lt t.isLt) ⊢ iprop((∃ d, owns (c : Thread nD τ) scM1_0 fullShare d) ∗ others1 c ∗ (∃ r, prngReg c r)) := by
        by_cases hz : t.val = 0
        · rw [PhiS1_zero V c _ _ hz]; exact PhiA1_split c
        · rw [PhiS1_pos V c _ _ hz]
          iintro ⟨HS0, Hoth, Hg⟩
          isplitl [HS0]; · iexists _; iexact HS0
          isplitl [Hoth]; · iexact Hoth
          iexact Hg
      iintro ⟨HΦ, Ho, ⟨%d0, H0⟩, ⟨%d1, H1⟩, ⟨%d2, H2⟩⟩
      ihave HΦ' := hΦ $$ HΦ
      icases HΦ' with ⟨HS0, Hoth, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A_0 c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what every region may use. -/
theorem Phi_in1 (c : Dev nD) : (dat1 V c).Φ 0 = Pipeline.ΦA spec1 c := rfl

/-- After the last point the invariant gives that back: the accumulator's contents are forgotten. -/
theorem Phi_out1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ hne]
  refine .trans ?_ (PhiA1_join c)
  iintro ⟨HS0, Hoth, Hg⟩
  isplitl [HS0]; · iexists _; iexact HS0
  isplitl [Hoth]; · iexact Hoth
  iexact Hg

end Cert.Kernel.Hand

end
-- ==== Proof.K.Data2.lean ====
/-
  The third kernel region (the Q projection fused with the product by kᵀv), its data.

  The region walks the 8192 rows of the input in 8 blocks of 1024 rows. At a block it is handed the block of x, the
  whole weight wq and the whole [1024, 1024] matrix M (kᵀv, summed over the two halves by the host), and leaves in its
  output buffer ((block of x)·wq)·M: two matrix products, each into a zero accumulator. Stated here: each window's
  block at a grid point, what the body leaves in the output buffer as a function of the input blocks, and the region's
  proof data.
-/
import proofs.«107815_j68736656605705_2_alg».proof.Proof.Gen.Kernel.Launch
import proofs.«107815_j68736656605705_2_alg».proof.Proof.Gen.Kernel.Skeleton
import proofs.«107815_j68736656605705_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one rectangle every access of the body goes through: the whole 1024 × 1024 buffer. -/
abbrev rW2 : Rect S1024x1024 := Rect.unit (s := S1024x1024) ![0, 0] S1024x1024.size inb_S1024x1024_S1024x1024_0_0

/-- The output's buffer after the body: one store of ((block of x)·wq)·M over the whole buffer. -/
def out2_3 (x0 x1 : Vec F S1024x1024 .bf16) (x2 : Vec F S1024x1024 .f32) : Vec F S1024x1024 .f32 :=
  View.canon [⟨rW2, k2_pay1 (View.ld x0 rW2) (View.ld x1 rW2) (View.ld x2 rW2)⟩]

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.Kernel.Hand

end
-- ==== Proof.K.Body2.lean ====
/-
  The third kernel region (the Q projection fused with the product by kᵀv), its body at a grid point.

  At every point the body reads the block of x, the whole weight wq and the whole matrix M, and overwrites its output
  buffer, whole, with ((block of x)·wq)·M. Proved here: each input buffer holds its block when the body starts; the
  body, run on buffers holding x0, x1, x2 and any output buffer, ends with the inputs untouched and the output at
  `out2_3 x0 x1 x2`; hence the obligation the pipeline asks of the body at every point.
-/
import proofs.«107815_j68736656605705_2_alg».proof.Proof.K.Data2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The input buffers hold their blocks -/

/-- Input window 0: whatever proof data has the region's array (`hA`) and a body that leaves the block where it
    found it (`hafter`), the buffer the body is handed at a point holds that point's block, whether or not the block was
    brought in at that very point: when it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whatever proof data has the region's array (`hA`) and a body that leaves the block where it
    found it (`hafter`), the buffer the body is handed at a point holds that point's block, whether or not the block was
    brought in at that very point: when it was not, the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whatever proof data has the region's array (`hA`) and a body that leaves the block where it
    found it (`hafter`), the buffer the body is handed at a point holds that point's block, whether or not the block was
    brought in at that very point: when it was not, the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## One whole-buffer store covers the buffer -/

/-- Every index of the output buffer lies in the one rectangle stored. -/
theorem cover2_3 (p0 : Vec F S1024x1024 .f32) (y : S1024x1024.Idx) :
    ∃ pc ∈ ([⟨rW2, p0⟩] : List (View.Piece (Elt F) S1024x1024 .f32)), y ∈ pc.1.set :=
  View.cover_of_tiled [⟨rW2, p0⟩] S1024x1024.size (by rfl) y

/-! ## The body on four buffers -/

set_option maxHeartbeats 1000000 in
/-- The body, run on four whole buffers — the inputs holding `x0`, `x1`, `x2`, the output holding anything —, ends with
    the inputs as they were and the output at `out2_3 x0 x1 x2`: it reads each input once, reads the output once
    without using what it read, and stores the double product over the whole output, so what the output holds
    afterwards is that one store (`cover2_3`). The grid coordinate is not used. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole)
    (x0 : Vec F S1024x1024 .bf16) (x1 : Vec F S1024x1024 .bf16) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__qm_fused_kernel i arg1 harg1 arg2 harg2 arg3 harg3 arg4 harg4) K := by
  simp only [cc2__qm_fused_kernel_eq_skeleton]; unfold cc2__qm_fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The obligation at a grid point -/

/-- What the body is handed at point `t`: the region's invariant, what is owed, and each window's current buffer,
    whole, at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back: the same invariant and debts, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks (`before2_W`), so `sound_kernel2` applies at those
    blocks; the invariant and the debts are neither read nor changed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.MainRun.lean ====
/-
  The whole program as a run of five segments.

  @main is: four host conversions of the arguments to the narrow format; the K/V projection region; the kᵀv region;
  two host operations (a zero constant, the sum of the two halves); the final region. Between two segments every
  unscoped buffer of a core is held whole at contents named here by a fold from the launch memory: a host stretch
  applies its operations; a region replaces each of its arrays by what its write-backs leave and keeps every other
  buffer. Each region is a segment record over that thread state, built from its proof data and body obligation; the
  launch theorem for a list of segments then gives: every weakly fair execution terminates without a fault, and at
  the end every unscoped buffer of every core holds the last boundary's contents. No argument array is a host
  operation's result or a region's array, so the fold at an argument walks back to the launch memory.
-/
import proofs.«107815_j68736656605705_2_alg».proof.Proof.K.Body0
import proofs.«107815_j68736656605705_2_alg».proof.Proof.K.Region1
import proofs.«107815_j68736656605705_2_alg».proof.Proof.K.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the zero constant and the sum of the halves (the last region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

/-- `main_arg0` ends as launched: no host operation writes it and it is no region's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and it is no region's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and it is no region's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and it is no region's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No region has a prefetched table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at what the write-backs leave; the generator register goes
    into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register goes
    into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its
    arrays are split out of the unscoped buffers and put back at what the write-backs leave; the generator register goes
    into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer of every core holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c)⟩) (run_all m ρ)

end Cert.Kernel.Hand

end
-- ==== Proof.KI.Data0.lean ====
/-
  The first kernel region (the joint K and V projection), its data.

  The region walks the 8192 rows of the input in 8 blocks of 1024 rows. At a block it is handed the block of x and the
  two whole weights, and leaves in its two output buffers the block's rows of x·wk and of x·wv, each one matrix
  product into a zero accumulator, rounded to the narrow format on the way out. Stated here: each window's block at a
  grid point read off the arrays as the region finds them, what the body leaves in each output buffer as a function of
  the input blocks, and the region's proof data (arrays as found; inputs handed back as they came; nothing kept
  between points beyond what every kernel may use).
-/
import proofs.«107815_j68736656605705_2_alg».proof.Proof.Gen.KernelIdeal.Launch
import proofs.«107815_j68736656605705_2_alg».proof.Proof.Gen.KernelIdeal.Skeleton
import proofs.«107815_j68736656605705_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body goes through: the whole 1024 × 1024 buffer. -/
abbrev rW0 : Rect S1024x1024 := Rect.unit (s := S1024x1024) ![0, 0] S1024x1024.size inb_S1024x1024_S1024x1024_0_0

/-- The K output's buffer after the body: one store of (block of x)·wk over the whole buffer. -/
def out0_3 (x0 x1 : Vec F S1024x1024 .bf16) : Vec F S1024x1024 .bf16 :=
  View.canon [⟨rW0, k0_pay2 (View.ld x0 rW0) (View.ld x1 rW0)⟩]

/-- The V output's buffer after the body: one store of (block of x)·wv over the whole buffer. -/
def out0_4 (x0 x2 : Vec F S1024x1024 .bf16) : Vec F S1024x1024 .bf16 :=
  View.canon [⟨rW0, k0_pay3 (View.ld x0 rW0) (View.ld x2 rW0)⟩]

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

end Cert.KernelIdeal.Hand

end
-- ==== Proof.KI.Body0.lean ====
/-
  The first kernel region (the joint K and V projection), its body at a grid point.

  At every point the body reads the block of x and the two whole weights, and overwrites each of its two output
  buffers, whole, with one product. Proved here: each input buffer holds its block when the body starts; the body,
  run on buffers holding x0, x1, x2 and any two output buffers, ends with the inputs untouched and the outputs at
  `out0_3 x0 x1` and `out0_4 x0 x2`; hence the obligation the pipeline asks of the body at every point.
-/
import proofs.«107815_j68736656605705_2_alg».proof.Proof.KI.Data0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The input buffers hold their blocks -/

/-- Input window 0: whatever proof data has the region's array (`hA`) and a body that leaves the block where it
    found it (`hafter`), the buffer the body is handed at a point holds that point's block, whether or not the block was
    brought in at that very point: when it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has the region's array (`hA`) and a body that leaves the block where it
    found it (`hafter`), the buffer the body is handed at a point holds that point's block, whether or not the block was
    brought in at that very point: when it was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has the region's array (`hA`) and a body that leaves the block where it
    found it (`hafter`), the buffer the body is handed at a point holds that point's block, whether or not the block was
    brought in at that very point: when it was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## One whole-buffer store covers the buffer -/

/-- Every index of the K output buffer lies in the one rectangle stored. -/
theorem cover0_3 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-- Every index of the V output buffer lies in the one rectangle stored. -/
theorem cover0_4 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-! ## The body on five buffers -/

set_option maxHeartbeats 1000000 in
/-- The body, run on five whole buffers — the inputs holding `x0`, `x1`, `x2`, the outputs holding anything —, ends with
    the inputs as they were and the outputs at `out0_3 x0 x1` and `out0_4 x0 x2`: it reads each input once, reads each
    output once without using what it read, and stores one product over the whole of each output, so what an output
    holds afterwards is that one store (`cover0_3`, `cover0_4`). The grid coordinate is not used. -/
theorem sound_kernel0 (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole)
    (x0 : Vec F S1024x1024 .bf16) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__kv_proj_kernel i arg1 harg1 arg2 harg2 arg3 harg3 arg4 harg4 arg5 harg5) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The obligation at a grid point -/

/-- What the body is handed at point `t`: the region's invariant, what is owed, and each window's current buffer,
    whole, at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks (`before0_W`), so `sound_kernel0` applies at those
    blocks; the invariant and the debts are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Runs1.lean ====
/-
  The second kernel region (kᵀv, half by half), what its three cases share.

  The region's grid is 2 × 4: the outer coordinate is the half of the rows, the inner one the block of 1024 rows within
  the half. At a point the body is handed the point's block of K and of V; it keeps a [1024, 1024] accumulator in a
  buffer of its own across the four points of a half: zeroed at the half's first point, the block's Kᵀ·V added at
  every point, copied to the half's output block at the half's last point. So a point is in one of three cases —
  first of its half (zero, then add), middle (add), last (add, then copy out) — decided by the inner coordinate alone.
  Stated here: each window's block at a point; the two conditions in closed form over the grid; where the output
  window is idle; the names of the buffers the body is called with; and the region's invariant taken apart into the
  accumulator, the other scoped buffers, and the generator register.
-/
import proofs.«107815_j68736656605705_2_alg».proof.Proof.Gen.KernelIdeal.Launch
import proofs.«107815_j68736656605705_2_alg».proof.Proof.Gen.KernelIdeal.Skeleton
import proofs.«107815_j68736656605705_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The K window's current buffer holds its block at every point, for any proof data whose array is the entry
    contents and whose body hands the block back. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the V window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions -/

/-- "This is the half's first block": the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the half's last block": the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from a half's last block nothing is stored into the output window, and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a half's last block the output window is live. -/
theorem liveAt1_2_C : ∀ t : Fin cfg1.N, ¬cond1_0 (grid1.coords t) → cond1_1 (grid1.coords t) → cfg1.idle 2 (grid1.coords t) = false := by decide +kernel

/-! ## The buffers the body is called with -/

/-- One buffer of the output window, through which its contents are stated. -/
abbrev VO1_2 : View sig .tc .vmem S1x1024x1024 .f32 := (Memref.whole cc1_stg2_0 : Memref sig .tc .vmem S1x1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S1024x1024 .f32 := Memref.whole cc1_scratch0
abbrev VS1_0 : View sig .tc .vmem S1024x1024 .f32 := scM1_0.view

/-! ## The invariant taken apart -/

/-- The core's scoped buffers other than this region's windows' and the accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What every kernel region may use and need not describe, with the accumulator split off. -/
theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨H1, H2, H3, H4, H5, H6, H7, H8, H9, H10, H11, H12, H13, H14, H15⟩, Hg⟩
  isplitl [H9]; · iexact H9
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iexact H15

/-- … and put back. -/
theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]; simp only [scM1_0, owns_whole]
  iintro ⟨H9, ⟨H1, H2, H3, H4, H5, H6, H7, H8, H10, H11, H12, H13, H14, H15⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Hand

end
-- ==== Proof.KI.Run1A.lean ====
/-
  The second kernel region at the first block of a half: the accumulator, whatever it held, is overwritten with
  zeros and then with zeros plus the block's Kᵀ·V; nothing is stored into the output window, whose buffer is handed
  back as it came. The body's run is stated with the list of pieces the accumulator ends written with left for the
  run itself to determine (last store first).
-/
import proofs.«107815_j68736656605705_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a half's first block, on whole buffers: the K and V blocks at their contents, the output buffer at
    contents it hands back untouched, the accumulator at anything; it ends with the inputs and the output buffer as
    they were and the accumulator written with the pieces `LS0`. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨[], ?_, fun xi2 E K => ?run⟩
  case run =>
    simp only [cc1__ktv_kernel_eq_skeleton]; unfold cc1__ktv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Run1B.lean ====
/-
  The second kernel region at a middle block of a half: the block's Kᵀ·V is added to what the accumulator held;
  nothing is stored into the output window, whose buffer is handed back as it came.
-/
import proofs.«107815_j68736656605705_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a half's middle block, on whole buffers: the K and V blocks at their contents, the output buffer at
    contents it hands back untouched, the accumulator at what the block before left (`xs0`); it ends with the inputs
    and the output buffer as they were and the accumulator written with the pieces `LS0`. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨[], ?_, fun xi2 E K => ?run⟩
  case run =>
    simp only [cc1__ktv_kernel_eq_skeleton]; unfold cc1__ktv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Run1C.lean ====
/-
  The second kernel region at the last block of a half: the block's Kᵀ·V is added to what the accumulator held,
  and the accumulator is then copied, as a [1, 1024, 1024] slab, over the whole output buffer.
-/
import proofs.«107815_j68736656605705_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a half's last block, on whole buffers: the K and V blocks at their contents, the output buffer at
    anything, the accumulator at what the block before left (`xs0`); it ends with the inputs as they were, the
    output buffer written with the pieces `L2` and the accumulator with the pieces `LS0`. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) :
    Σ' (L2 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ktv_kernel i arg2 harg2 arg3 harg3 arg4 harg4 arg5 harg5) K } := by
  refine ⟨?_, ?_, fun E K => ?run⟩
  case run =>
    simp only [cc1__ktv_kernel_eq_skeleton]; unfold cc1__ktv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Region1.lean ====
/-
  The second kernel region (kᵀv, half by half): what it leaves, point by point, and its body obligation.

  What a point leaves in the accumulator depends on what the point before left there (except at the first block of a
  half, which starts from zeros), so the contents after each point are defined by recursion on the point: the point's
  case — first, middle or last block of its half — run on the point's blocks of K and V and, for a middle or last
  block, on the accumulator as the point before left it. The output window holds something only after a half's last
  block, where the accumulator is copied out; that is also the only place its block is written back. The region's
  invariant before a point is: the accumulator at what the point before left (anything, before the first point), the
  other scoped buffers and the generator register untouched.
-/
import proofs.«107815_j68736656605705_2_alg».proof.Proof.KI.Run1A
import proofs.«107815_j68736656605705_2_alg».proof.Proof.KI.Run1B
import proofs.«107815_j68736656605705_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## What each case leaves -/

/-- First block of a half: nothing is stored into the output window (a placeholder nothing consults). -/
def out1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) : Vec F S1x1024x1024 .f32 :=
  VO1_2.read (Elt F) (VO1_2.writes (Elt F) VO1_2.junk (kernelRun1_A c i arg2 harg2 arg3 harg3 arg4 harg4 arg5 harg5 hc0 hc1 x0 x1).1)

/-- First block of a half: the accumulator's pieces cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) (y : S1024x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1024.size (by sl_kernel_rfl) y

/-- First block of a half: what the accumulator holds afterwards. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg2 harg2 arg3 harg3 arg4 harg4 arg5 harg5 hc0 hc1 x0 x1).2.1)

/-- Middle block: nothing is stored into the output window (a placeholder nothing consults). -/
def out1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) : Vec F S1x1024x1024 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1024.size (by sl_kernel_rfl) y

/-- Middle block: what the accumulator holds afterwards. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg2 harg2 arg3 harg3 arg4 harg4 arg5 harg5 hc0 hc1 x0 x1 xs0).2.1)

/-- Last block of a half: the output window's pieces cover its block. -/
theorem cover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) (y : S1x1024x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1024x1024.size (by sl_kernel_rfl) y

/-- Last block of a half: what the output window's buffer holds afterwards. -/
def out1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) : Vec F S1x1024x1024 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1024.size (by sl_kernel_rfl) y

/-- Last block of a half: what the accumulator holds afterwards. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1024x1024 .f32) (harg5 : arg5.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output window's buffer and the accumulator hold after the body at position `n`: the case the inner
    coordinate selects, run on the point's blocks and, past a half's first block, on what position `n - 1` left in
    the accumulator. -/
def outsAt1 (c : Dev nD) : (n : ℕ) → n < cfg1.N → Vec F S1x1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what every region may use; afterwards the accumulator at what the
    point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ others1 c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ others1 c ∗ (∃ r, prngReg c r)) := by
  cases n with
  | zero => exact absurd rfl hz
  | succ n => rfl

/-! ## The proof data -/

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inner coordinate says which case the point is in; the invariant hands the body the
    accumulator at what the point before left (at anything at a half's first block) and takes it back at this
    point's contents; the other scoped buffers, the generator register and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      rw [PhiS1_castSucc V c t]
      have hΦ : PhiS1 V c t.val (Nat.le_of_lt t.isLt) ⊢ iprop((∃ d, owns (c : Thread nD τ) scM1_0 fullShare d) ∗ others1 c ∗ (∃ r, prngReg c r)) := by
        by_cases hz : t.val = 0
        · rw [PhiS1_zero V c _ _ hz]; exact PhiA1_split c
        · rw [PhiS1_pos V c _ _ hz]
          iintro ⟨HS0, Hoth, Hg⟩
          isplitl [HS0]; · iexists _; iexact HS0
          isplitl [Hoth]; · iexact Hoth
          iexact Hg
      iintro ⟨HΦ, Ho, ⟨%d0, H0⟩, ⟨%d1, H1⟩, ⟨%d2, H2⟩⟩
      ihave HΦ' := hΦ $$ HΦ
      icases HΦ' with ⟨HS0, Hoth, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A_0 c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what every region may use. -/
theorem Phi_in1 (c : Dev nD) : (dat1 V c).Φ 0 = Pipeline.ΦA spec1 c := rfl

/-- After the last point the invariant gives that back: the accumulator's contents are forgotten. -/
theorem Phi_out1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl, PhiS1_pos V c _ _ hne]
  refine .trans ?_ (PhiA1_join c)
  iintro ⟨HS0, Hoth, Hg⟩
  isplitl [HS0]; · iexists _; iexact HS0
  isplitl [Hoth]; · iexact Hoth
  iexact Hg

end Cert.KernelIdeal.Hand

end
-- ==== Proof.KI.Data2.lean ====
/-
  The third kernel region (the Q projection fused with the product by kᵀv), its data.

  The region walks the 8192 rows of the input in 8 blocks of 1024 rows. At a block it is handed the block of x, the
  whole weight wq and the whole [1024, 1024] matrix M (kᵀv, summed over the two halves by the host), and leaves in its
  output buffer ((block of x)·wq)·M: two matrix products, each into a zero accumulator. Stated here: each window's
  block at a grid point, what the body leaves in the output buffer as a function of the input blocks, and the region's
  proof data.
-/
import proofs.«107815_j68736656605705_2_alg».proof.Proof.Gen.KernelIdeal.Launch
import proofs.«107815_j68736656605705_2_alg».proof.Proof.Gen.KernelIdeal.Skeleton
import proofs.«107815_j68736656605705_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one rectangle every access of the body goes through: the whole 1024 × 1024 buffer. -/
abbrev rW2 : Rect S1024x1024 := Rect.unit (s := S1024x1024) ![0, 0] S1024x1024.size inb_S1024x1024_S1024x1024_0_0

/-- The output's buffer after the body: one store of ((block of x)·wq)·M over the whole buffer. -/
def out2_3 (x0 x1 : Vec F S1024x1024 .bf16) (x2 : Vec F S1024x1024 .f32) : Vec F S1024x1024 .f32 :=
  View.canon [⟨rW2, k2_pay1 (View.ld x0 rW2) (View.ld x1 rW2) (View.ld x2 rW2)⟩]

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.KernelIdeal.Hand

end
-- ==== Proof.KI.Body2.lean ====
/-
  The third kernel region (the Q projection fused with the product by kᵀv), its body at a grid point.

  At every point the body reads the block of x, the whole weight wq and the whole matrix M, and overwrites its output
  buffer, whole, with ((block of x)·wq)·M. Proved here: each input buffer holds its block when the body starts; the
  body, run on buffers holding x0, x1, x2 and any output buffer, ends with the inputs untouched and the output at
  `out2_3 x0 x1 x2`; hence the obligation the pipeline asks of the body at every point.
-/
import proofs.«107815_j68736656605705_2_alg».proof.Proof.KI.Data2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The input buffers hold their blocks -/

/-- Input window 0: whatever proof data has the region's array (`hA`) and a body that leaves the block where it
    found it (`hafter`), the buffer the body is handed at a point holds that point's block, whether or not the block was
    brought in at that very point: when it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whatever proof data has the region's array (`hA`) and a body that leaves the block where it
    found it (`hafter`), the buffer the body is handed at a point holds that point's block, whether or not the block was
    brought in at that very point: when it was not, the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whatever proof data has the region's array (`hA`) and a body that leaves the block where it
    found it (`hafter`), the buffer the body is handed at a point holds that point's block, whether or not the block was
    brought in at that very point: when it was not, the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## One whole-buffer store covers the buffer -/

/-- Every index of the output buffer lies in the one rectangle stored. -/
theorem cover2_3 (p0 : Vec F S1024x1024 .f32) (y : S1024x1024.Idx) :
    ∃ pc ∈ ([⟨rW2, p0⟩] : List (View.Piece (Elt F) S1024x1024 .f32)), y ∈ pc.1.set :=
  View.cover_of_tiled [⟨rW2, p0⟩] S1024x1024.size (by rfl) y

/-! ## The body on four buffers -/

set_option maxHeartbeats 1000000 in
/-- The body, run on four whole buffers — the inputs holding `x0`, `x1`, `x2`, the output holding anything —, ends with
    the inputs as they were and the output at `out2_3 x0 x1 x2`: it reads each input once, reads the output once
    without using what it read, and stores the double product over the whole output, so what the output holds
    afterwards is that one store (`cover2_3`). The grid coordinate is not used. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole)
    (x0 : Vec F S1024x1024 .bf16) (x1 : Vec F S1024x1024 .bf16) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__qm_fused_kernel i arg1 harg1 arg2 harg2 arg3 harg3 arg4 harg4) K := by
  simp only [cc2__qm_fused_kernel_eq_skeleton]; unfold cc2__qm_fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The obligation at a grid point -/

/-- What the body is handed at point `t`: the region's invariant, what is owed, and each window's current buffer,
    whole, at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back: the same invariant and debts, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks (`before2_W`), so `sound_kernel2` applies at those
    blocks; the invariant and the debts are neither read nor changed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.MainRun.lean ====
/-
  The whole program as a run of five segments.

  @main is: four host conversions of the arguments to the narrow format; the K/V projection region; the kᵀv region;
  two host operations (a zero constant, the sum of the two halves); the final region. Between two segments every
  unscoped buffer of a core is held whole at contents named here by a fold from the launch memory: a host stretch
  applies its operations; a region replaces each of its arrays by what its write-backs leave and keeps every other
  buffer. Each region is a segment record over that thread state, built from its proof data and body obligation; the
  launch theorem for a list of segments then gives: every weakly fair execution terminates without a fault, and at
  the end every unscoped buffer of every core holds the last boundary's contents. No argument array is a host
  operation's result or a region's array, so the fold at an argument walks back to the launch memory.
-/
import proofs.«107815_j68736656605705_2_alg».proof.Proof.KI.Body0
import proofs.«107815_j68736656605705_2_alg».proof.Proof.KI.Region1
import proofs.«107815_j68736656605705_2_alg».proof.Proof.KI.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the zero constant and the sum of the halves (the last region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

/-- `main_arg0` ends as launched: no host operation writes it and it is no region's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and it is no region's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and it is no region's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and it is no region's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No region has a prefetched table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at what the write-backs leave; the generator register goes
    into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register goes
    into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its
    arrays are split out of the unscoped buffers and put back at what the write-backs leave; the generator register goes
    into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer of every core holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c)⟩) (run_all m ρ)

end Cert.KernelIdeal.Hand

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.KI.Product.lean ====
/-
  A product of two 1024 × 1024 matrices into the zero accumulator, read at an entry.

  The first and third kernel regions multiply a block of rows by a whole 1024 × 1024 matrix, contracting the left
  operand's columns against the right operand's rows. On the extended reals such a product accumulated into the zero
  splat is, at (p, q), the plain sum ∑ₐ l(p, a) · r(a, q). Also here: the zero offsets of the one rectangle every
  access of those bodies goes through.
-/
import proofs.«107815_j68736656605705_2_alg».proof.Proof.Gen.KernelIdeal
import proofs.«107815_j68736656605705_2_alg».proof.Proof.LibMatmulRowsByCols
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- The zero offsets, however spelt. -/
theorem zero_off : (![0, 0] : Fin 2 → Nat) = fun _ => 0 := funext fun a => by fin_cases a <;> rfl

/-! ## The product's dimension record: it contracts the left's columns against the right's rows -/

theorem dotRC_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dotRC_lhs1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem dotRC_rhs0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem dotRC_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A product of two 1024 × 1024 matrices into the zero accumulator, at (p, q): the sum over the shared axis. -/
theorem matmulRC_apply {φ₁ φ₂ : FTy} (l : FVec Ideal S1024x1024 φ₁) (r : FVec Ideal S1024x1024 φ₂) (p q : Fin 1024) :
    matmul dot_S1024x1024_S1024x1024_S1024x1024_1_0_0_1_n_n none l r (constant (F := Ideal) S1024x1024 .f32 0x00000000#32) (ix2 p q)
      = ∑ a : Fin 1024, l (ix2 p a) * r (ix2 a q) :=
  MatmulRowsByCols.matmul_zero_apply dot_S1024x1024_S1024x1024_S1024x1024_1_0_0_1_n_n rfl rfl
    dotRC_lhs0 dotRC_lhs1 dotRC_rhs0 dotRC_rhs1 none l r p q

end Cert.KernelIdeal.Hand

end
-- ==== Proof.KI.Val0.lean ====
/-
  The first kernel region (the joint K and V projection), its two output arrays read index by index.

  On the extended reals the format changes are the identity and a matrix product into the zero accumulator is the plain
  sum, so the body leaves in an output buffer, at (p, q), the sum over a of (block of x)(p, a) · w(a, q). The block of x
  at grid point t is rows 1024 t … 1024 t + 1023 of x and the weights' block is the whole weight, so what point t writes
  back is block t of the one whole-array function (r, q) ↦ ∑ₐ x(r, a) · w(a, q); the eight blocks tile the 8192 rows
  (row r lies in block r / 1024), so the array ends holding that function.
-/
import proofs.«107815_j68736656605705_2_alg».proof.Proof.KI.Data0
import proofs.«107815_j68736656605705_2_alg».proof.Proof.KI.Product
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## What the body leaves in each output buffer, at an entry -/

/-- The K output's buffer at (p, q): row p of the block of x against column q of wk. -/
theorem out0_3_apply (x0 x1 : Vec Ideal S1024x1024 .bf16) (p q : Fin 1024) :
    out0_3 (F := Ideal) x0 x1 (ix2 p q) = ∑ a : Fin 1024, x0 (ix2 p a) * x1 (ix2 a q) := by
  unfold out0_3
  rw [View.canon_unit_zero zero_off, View.ld_unit_zero (S := S1024x1024) zero_off, View.ld_unit_zero (S := S1024x1024) zero_off]
  unfold k0_pay2 k0_pay1
  refine Eq.trans ?_ (matmulRC_apply (φ₁ := .bf16) (φ₂ := .bf16) x0 x1 p q)
  rw [shapeCast_self, shapeCast_self]
  rfl

/-- The V output's buffer at (p, q): row p of the block of x against column q of wv. -/
theorem out0_4_apply (x0 x2 : Vec Ideal S1024x1024 .bf16) (p q : Fin 1024) :
    out0_4 (F := Ideal) x0 x2 (ix2 p q) = ∑ a : Fin 1024, x0 (ix2 p a) * x2 (ix2 a q) := by
  unfold out0_4
  rw [View.canon_unit_zero zero_off, View.ld_unit_zero (S := S1024x1024) zero_off, View.ld_unit_zero (S := S1024x1024) zero_off]
  unfold k0_pay3 k0_pay1
  refine Eq.trans ?_ (matmulRC_apply (φ₁ := .bf16) (φ₂ := .bf16) x0 x2 p q)
  rw [shapeCast_self, shapeCast_self]
  rfl

/-! ## From blocks to the arrays -/

-- the buffer contents when the region is entered
variable (V : (c : Dev nD) → (b : Ref sig .tc) → Buf (Elt Ideal) ((c : Thread nD τ).loc b))

/-- Rows of an [8192, 1024] matrix against columns of a [1024, 1024] one: the product, index by index. -/
def rowsByCols (x : S8192x1024.Idx → EReal) (w : S1024x1024.Idx → EReal) : S8192x1024.Idx → EReal :=
  fun i => ∑ a : Fin 1024, x (ix2 (i 0) a) * w (ix2 a (i 1))

theorem rowsByCols_apply (x : S8192x1024.Idx → EReal) (w : S1024x1024.Idx → EReal) (r : Fin 8192) (q : Fin 1024) :
    rowsByCols x w (ix2 r q) = ∑ a : Fin 1024, x (ix2 r a) * w (ix2 a q) := rfl

/-- The index maps, decided over the grid: at point t the block of x and the two output blocks are block row t,
    the weights' block is the whole weight. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of x at point t, at (p, a), is x at row 1024 t + p. -/
theorem iblk0_x_apply (c : Dev nD) (t : Fin cfg0.N) (p a : Fin 1024) (r : Fin 8192) (hr : r.val = t.val * 1024 + p.val) :
    iblk0 V c 0 t (ix2 p a) = (V c main_v0 : S8192x1024.Idx → EReal) (ix2 r a) := by
  obtain ⟨e0, e1, -⟩ := block_indices0 t
  unfold iblk0
  show (V c main_v0 : S8192x1024.Idx → EReal) (((cfg0.win 0).blk t).view.emb (ix2 p a)) = _
  congr 1
  funext d
  apply Fin.ext
  match d with
  | ⟨0, _⟩ => show win0_0.index t (0 : Fin 2) * 1024 + 1 * p.val = r.val; omega
  | ⟨1, _⟩ => show win0_0.index t (1 : Fin 2) * 1024 + 1 * a.val = a.val; omega

/-- The block of wk at any point is wk. -/
theorem iblk0_wk_apply (c : Dev nD) (t : Fin cfg0.N) (a q : Fin 1024) :
    iblk0 V c 1 t (ix2 a q) = (V c main_v2 : S1024x1024.Idx → EReal) (ix2 a q) := by
  obtain ⟨-, -, e0, e1, -⟩ := block_indices0 t
  unfold iblk0
  show (V c main_v2 : S1024x1024.Idx → EReal) (((cfg0.win 1).blk t).view.emb (ix2 a q)) = _
  congr 1
  funext d
  apply Fin.ext
  match d with
  | ⟨0, _⟩ => show win0_1.index t (0 : Fin 2) * 1024 + 1 * a.val = a.val; omega
  | ⟨1, _⟩ => show win0_1.index t (1 : Fin 2) * 1024 + 1 * q.val = q.val; omega

/-- The block of wv at any point is wv. -/
theorem iblk0_wv_apply (c : Dev nD) (t : Fin cfg0.N) (a q : Fin 1024) :
    iblk0 V c 2 t (ix2 a q) = (V c main_v3 : S1024x1024.Idx → EReal) (ix2 a q) := by
  obtain ⟨-, -, -, -, e0, e1, -⟩ := block_indices0 t
  unfold iblk0
  show (V c main_v3 : S1024x1024.Idx → EReal) (((cfg0.win 2).blk t).view.emb (ix2 a q)) = _
  congr 1
  funext d
  apply Fin.ext
  match d with
  | ⟨0, _⟩ => show win0_2.index t (0 : Fin 2) * 1024 + 1 * a.val = a.val; omega
  | ⟨1, _⟩ => show win0_2.index t (1 : Fin 2) * 1024 + 1 * q.val = q.val; omega

/-- Where the K output's block at point t places (p, q): row 1024 t + p, column q. -/
theorem emb0_3 (t : Fin cfg0.N) (p q : Fin 1024) (r : Fin 8192) (hr : r.val = t.val * 1024 + p.val) :
    ((cfg0.win 3).blk t).view.emb (ix2 p q) = (ix2 r q : S8192x1024.Idx) := by
  obtain ⟨-, -, -, -, -, -, e0, e1, -⟩ := block_indices0 t
  funext d
  apply Fin.ext
  match d with
  | ⟨0, _⟩ => show win0_3.index t (0 : Fin 2) * 1024 + 1 * p.val = r.val; omega
  | ⟨1, _⟩ => show win0_3.index t (1 : Fin 2) * 1024 + 1 * q.val = q.val; omega

/-- Where the V output's block at point t places (p, q): row 1024 t + p, column q. -/
theorem emb0_4 (t : Fin cfg0.N) (p q : Fin 1024) (r : Fin 8192) (hr : r.val = t.val * 1024 + p.val) :
    ((cfg0.win 4).blk t).view.emb (ix2 p q) = (ix2 r q : S8192x1024.Idx) := by
  obtain ⟨-, -, -, -, -, -, -, -, e0, e1⟩ := block_indices0 t
  funext d
  apply Fin.ext
  match d with
  | ⟨0, _⟩ => show win0_4.index t (0 : Fin 2) * 1024 + 1 * p.val = r.val; omega
  | ⟨1, _⟩ => show win0_4.index t (1 : Fin 2) * 1024 + 1 * q.val = q.val; omega

/-- The row of the array that (t, p) names. -/
def rowAt (t : Fin cfg0.N) (p : Fin 1024) : Fin 8192 :=
  ⟨t.val * 1024 + p.val, by have h : t.val < 8 := t.isLt; have := p.isLt; omega⟩

/-- What point t writes back into the K output is block t of x·wk. -/
theorem flushed0_3_eq (c : Dev nD) (t : Fin cfg0.N) :
    (dat0 (F := Ideal) V c).flushed 3 t
      = ((cfg0.win 3).blk t).view.read (Elt Ideal) (rowsByCols (V c main_v0) (V c main_v2)) := by
  show (cfg0.win 3).cut (grid0.coords t) ((dat0 V c).after 3 t) = _
  rw [after0_3]
  funext j
  obtain ⟨p, q, rfl⟩ : ∃ (p q : Fin 1024), j = ix2 p q := ⟨j 0, j 1, eq_ix2 j⟩
  show out0_3 (iblk0 V c 0 t) (iblk0 V c 1 t) (ix2 p q)
    = rowsByCols (V c main_v0) (V c main_v2) (((cfg0.win 3).blk t).view.emb (ix2 p q))
  refine (out0_3_apply _ _ p q).trans ?_
  rw [emb0_3 t p q (rowAt t p) rfl, rowsByCols_apply]
  refine Finset.sum_congr rfl fun a _ => ?_
  rw [iblk0_x_apply V c t p a (rowAt t p) rfl, iblk0_wk_apply V c t a q]

/-- What point t writes back into the V output is block t of x·wv. -/
theorem flushed0_4_eq (c : Dev nD) (t : Fin cfg0.N) :
    (dat0 (F := Ideal) V c).flushed 4 t
      = ((cfg0.win 4).blk t).view.read (Elt Ideal) (rowsByCols (V c main_v0) (V c main_v3)) := by
  show (cfg0.win 4).cut (grid0.coords t) ((dat0 V c).after 4 t) = _
  rw [after0_4]
  funext j
  obtain ⟨p, q, rfl⟩ : ∃ (p q : Fin 1024), j = ix2 p q := ⟨j 0, j 1, eq_ix2 j⟩
  show out0_4 (iblk0 V c 0 t) (iblk0 V c 2 t) (ix2 p q)
    = rowsByCols (V c main_v0) (V c main_v3) (((cfg0.win 4).blk t).view.emb (ix2 p q))
  refine (out0_4_apply _ _ p q).trans ?_
  rw [emb0_4 t p q (rowAt t p) rfl, rowsByCols_apply]
  refine Finset.sum_congr rfl fun a _ => ?_
  rw [iblk0_x_apply V c t p a (rowAt t p) rfl, iblk0_wv_apply V c t a q]

/-- An index of the array is in point t's K block iff each coordinate is in the block's range on its axis. -/
theorem mem_blk0_3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4_0).slice (win0_3.rect t)).set ↔ _
  rw [View.set_slice_whole, Rect.mem_set_unit]
  exact Iff.rfl

/-- The same for the V block. -/
theorem mem_blk0_4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_1).slice (win0_4.rect t)).set ↔ _
  rw [View.set_slice_whole, Rect.mem_set_unit]
  exact Iff.rfl

/-- The point whose blocks hold row r: r / 1024. -/
def pointOf (i : S8192x1024.Idx) : Fin cfg0.N :=
  ⟨(i 0).val / 1024, by have h : (i 0).val < 8192 := (i 0).isLt; show (i 0).val / 1024 < 8; omega⟩

theorem pointOf_val (i : S8192x1024.Idx) : (pointOf i).val = (i 0).val / 1024 := rfl

/-- The eight K blocks tile the array: row r lies in block r / 1024. -/
theorem tiles0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨-, -, -, -, -, -, e0, e1, -⟩ := block_indices0 (pointOf i)
  have hp := pointOf_val i
  refine ⟨pointOf i, flush0_3 (pointOf i), ?_⟩
  rw [mem_blk0_3]
  intro a
  match a with
  | ⟨0, _⟩ => show win0_3.index (pointOf i) (0 : Fin 2) * 1024 ≤ (i 0).val ∧ (i 0).val < win0_3.index (pointOf i) (0 : Fin 2) * 1024 + 1024; omega
  | ⟨1, _⟩ => show win0_3.index (pointOf i) (1 : Fin 2) * 1024 ≤ (i 1).val ∧ (i 1).val < win0_3.index (pointOf i) (1 : Fin 2) * 1024 + 1024; omega

/-- The eight V blocks tile the array. -/
theorem tiles0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨-, -, -, -, -, -, -, -, e0, e1⟩ := block_indices0 (pointOf i)
  have hp := pointOf_val i
  refine ⟨pointOf i, flush0_4 (pointOf i), ?_⟩
  rw [mem_blk0_4]
  intro a
  match a with
  | ⟨0, _⟩ => show win0_4.index (pointOf i) (0 : Fin 2) * 1024 ≤ (i 0).val ∧ (i 0).val < win0_4.index (pointOf i) (0 : Fin 2) * 1024 + 1024; omega
  | ⟨1, _⟩ => show win0_4.index (pointOf i) (1 : Fin 2) * 1024 ≤ (i 1).val ∧ (i 1).val < win0_4.index (pointOf i) (1 : Fin 2) * 1024 + 1024; omega

/-- THE K ARRAY after the region: x·wk, index by index. -/
theorem final0_3 (c : Dev nD) :
    (dat0 (F := Ideal) V c).arrAt 3 cfg0.N = rowsByCols (V c main_v0) (V c main_v2) :=
  (dat0 V c).arrAt_eq_of_cover 3 (rowsByCols (V c main_v0) (V c main_v2)) (fun t _ => flushed0_3_eq V c t) tiles0_3

/-- THE V ARRAY after the region: x·wv, index by index. -/
theorem final0_4 (c : Dev nD) :
    (dat0 (F := Ideal) V c).arrAt 4 cfg0.N = rowsByCols (V c main_v0) (V c main_v3) :=
  (dat0 V c).arrAt_eq_of_cover 4 (rowsByCols (V c main_v0) (V c main_v3)) (fun t _ => flushed0_4_eq V c t) tiles0_4

end Cert.KernelIdeal.Hand

end
-- ==== Proof.Spec.lean ====
/-
  Attention without the softmax, two ways.

  For an input x : [8192, 1024] and three weights wq, wk, wv : [1024, 1024] put q = x·wq, k = x·wk, v = x·wv
  (each [8192, 1024]). The reference forms the scores q·kᵀ ([8192, 8192]) and multiplies them by v:
      out(i, n) = ∑ₛ (∑_d q(i, d) · k(s, d)) · v(s, n).
  The kernel never forms the scores: it first contracts k against v over the rows,
      (kᵀv)(d, n) = ∑ₛ k(s, d) · v(s, n),
  the 8192 rows cut into two halves of four blocks of 1024 rows, each half's blocks added one after the other onto a
  zero accumulator and the two halves then added onto zero, and only then multiplies q by that [1024, 1024] matrix:
      out(i, n) = ∑_d q(i, d) · (kᵀv)(d, n).
  On the extended reals the two agree as soon as every entry of x, wq, wk, wv is a real number: then q, k, v are
  real, and the identity is associativity of the matrix product — moving a factor across a finite sum and
  exchanging two finite sums, both of which need finiteness (x · (a + b) = x·a + x·b fails at the infinities).
-/
import Idealize.ShloMosaic.PureOps.Ideal
import Idealize.ShloMosaic.Lib.ValueIdx

noncomputable section

open scoped BigOperators

namespace Cert.Spec

open Idealize.ShloMosaic Idealize.ShloMosaic.ValueIdx

/-- The shapes: the input, a weight. -/
abbrev SX : Shape := ⟨2, ![8192, 1024]⟩
abbrev SW : Shape := ⟨2, ![1024, 1024]⟩

/-- A projection x·w at row `s`, column `d`. -/
def proj (x : SX.Idx → EReal) (w : SW.Idx → EReal) (s : Fin 8192) (d : Fin 1024) : EReal :=
  ∑ a : Fin 1024, x (ix2 s a) * w (ix2 a d)

/-- Row `r` of block `j` of half `c`: the rows are cut into 2 halves of 4 blocks of 1024. -/
def row (c : Fin 2) (j : Fin 4) (r : Fin 1024) : Fin 8192 :=
  ⟨(c.val * 4 + j.val) * 1024 + r.val, by have := c.isLt; have := j.isLt; have := r.isLt; omega⟩

/-- Block (c, j)'s share of kᵀv at (d, n): the contraction over the block's 1024 rows. -/
def blockKtV (k v : Fin 8192 → Fin 1024 → EReal) (c : Fin 2) (j : Fin 4) (d n : Fin 1024) : EReal :=
  ∑ r : Fin 1024, k (row c j r) d * v (row c j r) n

/-- Half `c`'s share: its four blocks added one after the other onto zero. -/
def halfKtV (k v : Fin 8192 → Fin 1024 → EReal) (c : Fin 2) (d n : Fin 1024) : EReal :=
  (((0 + blockKtV k v c 0 d n) + blockKtV k v c 1 d n) + blockKtV k v c 2 d n) + blockKtV k v c 3 d n

/-- kᵀv as the kernel forms it: the two halves added onto zero. -/
def ktv (k v : Fin 8192 → Fin 1024 → EReal) (d n : Fin 1024) : EReal :=
  0 + ∑ c : Fin 2, halfKtV k v c d n

/-- What the kernel computes: q · (kᵀv). -/
def kernelOut (x : SX.Idx → EReal) (wq wk wv : SW.Idx → EReal) : SX.Idx → EReal := fun i =>
  ∑ d : Fin 1024, proj x wq (i 0) d * ktv (proj x wk) (proj x wv) d (i 1)

/-- What the reference computes: (q · kᵀ) · v. -/
def referenceOut (x : SX.Idx → EReal) (wq wk wv : SW.Idx → EReal) : SX.Idx → EReal := fun i =>
  ∑ s : Fin 8192, (∑ d : Fin 1024, proj x wq (i 0) d * proj x wk s d) * proj x wv s (i 1)

theorem kernelOut_apply (x : SX.Idx → EReal) (wq wk wv : SW.Idx → EReal) (p : Fin 8192) (n : Fin 1024) :
    kernelOut x wq wk wv (ix2 p n) = ∑ d : Fin 1024, proj x wq p d * ktv (proj x wk) (proj x wv) d n := rfl

theorem referenceOut_apply (x : SX.Idx → EReal) (wq wk wv : SW.Idx → EReal) (p : Fin 8192) (n : Fin 1024) :
    referenceOut x wq wk wv (ix2 p n)
      = ∑ s : Fin 8192, (∑ d : Fin 1024, proj x wq p d * proj x wk s d) * proj x wv s n := rfl

end Cert.Spec

end
-- ==== Proof.LibMatmulColsByCols.lean ====
/-
  A matrix product contracting the two operands' first axes, into the zero accumulator, read at an entry.

  On the extended reals a `tpu.matmul` of a `[K, M]` left operand and a `[K, N]` right operand, the contraction on the
  FIRST axis of both (no batch axis) — the product of the left operand's transpose with the right operand —,
  accumulated into the zero splat, is at entry `(p, q)` the plain sum `∑ₖ l(k, p) · r(k, q)`: no rounding, no order of
  accumulation. The dimension record is kept abstract; what is asked of it is that it contracts one axis of extent `K`
  and reads its operands at `(k, p)` and `(k, q)`, four facts a concrete record gives by unfolding. Any extents and
  operand formats. Imports only the library.
-/
import Idealize.ShloMosaic.PureOps.Ideal.Laws
import Idealize.ShloMosaic.Lib.ValueIdx

namespace Idealize.ShloMosaic.MatmulColsByCols

open Idealize.ShloMosaic Idealize.ShloMosaic.ValueIdx

/-- `matmul D prec l r 0` at `(p, q)` is `∑ k, l (k, p) * r (k, q)`. -/
theorem matmul_zero_apply {M K N : ℕ} {φ₁ φ₂ : FTy} (D : DotDims ⟨2, ![K, M]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (q ⟨0, by omega⟩).val)
    (hl1 : ∀ (j : (⟨2, ![M, N]⟩ : Shape).Idx) (q : D.contr.Idx), (D.lhsIdx j q 1).val = (j 0).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![K, M]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 k p) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulColsByCols
-- ==== Proof.KI.Val1.lean ====
/-
  The second kernel region (kᵀv, half by half), its output array read index by index.

  On the extended reals a matrix product into the zero accumulator is the plain sum, so a point's body adds to the
  accumulator, at (d, n), the sum over the block's rows r of K(r, d) · V(r, n); at the first block of a half it adds it
  to zero. The K and V blocks at grid point t are rows 1024 t … 1024 t + 1023, so after point t the accumulator
  holds, at (d, n), the chain 0 + B(4c) + … + B(t) of the block sums of the half c = t / 4 up to t, added in that
  order. At a half's last block the accumulator is copied to slab c of the [2, 1024, 1024] output, the only
  write-back of that slab; the two slabs tile the array, so it ends holding, at (c, d, n), half c's chain of four.
-/
import proofs.«107815_j68736656605705_2_alg».proof.Proof.KI.Region1
import proofs.«107815_j68736656605705_2_alg».proof.Proof.Spec
import proofs.«107815_j68736656605705_2_alg».proof.Proof.LibMatmulColsByCols
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen

/-- The zero offsets, however spelt. -/
theorem zero_off1_2 : (![0, 0] : Fin 2 → Nat) = fun _ => 0 := funext fun a => by fin_cases a <;> rfl
theorem zero_off1_3 : (![0, 0, 0] : Fin 3 → Nat) = fun _ => 0 := funext fun a => by fin_cases a <;> rfl

/-! ## The product's dimension record: it contracts the left's rows against the right's rows -/

theorem dotCC_lhs0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem dotCC_lhs1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem dotCC_rhs0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem dotCC_rhs1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The transpose of a 1024 × 1024 matrix times another, into the zero accumulator, at (d, n): the sum over the
    shared row index. -/
theorem matmulCC_apply {φ₁ φ₂ : FTy} (l : FVec Ideal S1024x1024 φ₁) (r : FVec Ideal S1024x1024 φ₂) (d n : Fin 1024) :
    matmul dot_S1024x1024_S1024x1024_S1024x1024_0_0_1_1_n_n none l r (constant (F := Ideal) S1024x1024 .f32 0x00000000#32) (ix2 d n)
      = ∑ k : Fin 1024, l (ix2 k d) * r (ix2 k n) :=
  MatmulColsByCols.matmul_zero_apply dot_S1024x1024_S1024x1024_S1024x1024_0_0_1_1_n_n rfl rfl
    dotCC_lhs0 dotCC_lhs1 dotCC_rhs0 dotCC_rhs1 none l r d n

/-! ## The payloads at an entry -/

/-- The block the reset stores is zero everywhere. -/
theorem pay1_1_apply (y : S1024x1024.Idx) : k1_pay1 (F := Ideal) y = 0 := by
  unfold k1_pay1
  rw [shapeCast_self]
  exact Ideal.ofBits_zero_f32

/-- What a point stores into the accumulator, at (d, n): what it held there plus the block's contraction. -/
theorem pay1_2_apply (x0 x1 : Vec Ideal S1024x1024 .bf16) (xs : Vec Ideal S1024x1024 .f32) (d n : Fin 1024) :
    k1_pay2 (F := Ideal) x0 x1 xs (ix2 d n) = xs (ix2 d n) + ∑ r : Fin 1024, x0 (ix2 r d) * x1 (ix2 r n) := by
  unfold k1_pay2
  refine Eq.trans ?_ (congrArg (fun z => xs (ix2 d n) + z) (matmulCC_apply (φ₁ := .bf16) (φ₂ := .bf16) x0 x1 d n))
  rw [shapeCast_self, shapeCast_self, shapeCast_self]
  rfl

/-- The copy-out adds a leading axis of extent one: (z, d, n) of the copy is (d, n) of the accumulator. -/
theorem pay1_3_apply (xs : Vec Ideal S1024x1024 .f32) (z : Fin 1) (d n : Fin 1024) :
    k1_pay3 (F := Ideal) xs (ix3 z d n) = xs (ix2 d n) := by
  unfold k1_pay3
  refine (shapeCast_addUnit_apply (α := Ideal .f32) ![1024, 1024] xs shapeCasts_S1024x1024_S1x1024x1024 (ix3 z d n)).trans ?_
  congr 1
  funext a
  match a with
  | ⟨0, _⟩ => rfl
  | ⟨1, _⟩ => rfl

/-! ## What each case leaves, as a function of what it is handed -/

section Pieces
variable {F : FTy → Type} [FloatOps F]

/-- First block of a half: the accumulator ends at the point's store of (the zero block read back) plus the
    contraction. -/
theorem sout1_A_0_eq (c : Dev nD) (i : grid1.Coords) (a2 : Memref sig .tc .vmem S1024x1024 .bf16) (h2 : a2.IsWhole) (a3 : Memref sig .tc .vmem S1024x1024 .bf16) (h3 : a3.IsWhole) (a4 : Memref sig .tc .vmem S1x1024x1024 .f32) (h4 : a4.IsWhole) (a5 : Memref sig .tc .vmem S1024x1024 .f32) (h5 : a5.IsWhole) (hc0 : cond1_0 i) (hc1 : ¬cond1_1 i) (x0 x1 : Vec F S1024x1024 .bf16) :
    sout1_A_0 c i a2 h2 a3 h3 a4 h4 a5 h5 hc0 hc1 x0 x1 = k1_pay2 x0 x1 (k1_pay1 (F := F)) := by
  unfold sout1_A_0
  rw [View.read_writes_eq_canon _ _ _ (scover1_A_0 c i a2 h2 a3 h3 a4 h4 a5 h5 hc0 hc1 x0 x1)]
  unfold kernelRun1_A
  dsimp only
  sl_unfold_words
  rw [View.canon_cons_unit_zero (S := S1024x1024) zero_off1_2, View.readCov_unit_zero (S := S1024x1024) _ zero_off1_2]
  simp only [View.readAt_eq_ld, h2.read_unread, h3.read_unread, View.ld_unit_zero (S := S1024x1024) zero_off1_2]

/-- Middle block: the accumulator ends at the point's store of what it held plus the contraction. -/
theorem sout1_B_0_eq (c : Dev nD) (i : grid1.Coords) (a2 : Memref sig .tc .vmem S1024x1024 .bf16) (h2 : a2.IsWhole) (a3 : Memref sig .tc .vmem S1024x1024 .bf16) (h3 : a3.IsWhole) (a4 : Memref sig .tc .vmem S1x1024x1024 .f32) (h4 : a4.IsWhole) (a5 : Memref sig .tc .vmem S1024x1024 .f32) (h5 : a5.IsWhole) (hc0 : ¬cond1_0 i) (hc1 : ¬cond1_1 i) (x0 x1 : Vec F S1024x1024 .bf16) (xs0 : Vec F S1024x1024 .f32) :
    sout1_B_0 c i a2 h2 a3 h3 a4 h4 a5 h5 hc0 hc1 x0 x1 xs0 = k1_pay2 x0 x1 xs0 := by
  unfold sout1_B_0
  rw [View.read_writes_eq_canon _ _ _ (scover1_B_0 c i a2 h2 a3 h3 a4 h4 a5 h5 hc0 hc1 x0 x1 xs0)]
  unfold kernelRun1_B
  dsimp only
  sl_unfold_words
  rw [View.canon_unit_zero (S := S1024x1024) zero_off1_2]
  simp only [View.readAt_eq_ld, h2.read_unread, h3.read_unread, h5.read_unread, View.ld_unit_zero (S := S1024x1024) zero_off1_2]

/-- Last block of a half: the accumulator, as at a middle block. -/
theorem sout1_C_0_eq (c : Dev nD) (i : grid1.Coords) (a2 : Memref sig .tc .vmem S1024x1024 .bf16) (h2 : a2.IsWhole) (a3 : Memref sig .tc .vmem S1024x1024 .bf16) (h3 : a3.IsWhole) (a4 : Memref sig .tc .vmem S1x1024x1024 .f32) (h4 : a4.IsWhole) (a5 : Memref sig .tc .vmem S1024x1024 .f32) (h5 : a5.IsWhole) (hc0 : ¬cond1_0 i) (hc1 : cond1_1 i) (x0 x1 : Vec F S1024x1024 .bf16) (xs0 : Vec F S1024x1024 .f32) :
    sout1_C_0 c i a2 h2 a3 h3 a4 h4 a5 h5 hc0 hc1 x0 x1 xs0 = k1_pay2 x0 x1 xs0 := by
  unfold sout1_C_0
  rw [View.read_writes_eq_canon _ _ _ (scover1_C_0 c i a2 h2 a3 h3 a4 h4 a5 h5 hc0 hc1 x0 x1 xs0)]
  unfold kernelRun1_C
  dsimp only
  sl_unfold_words
  rw [View.canon_unit_zero (S := S1024x1024) zero_off1_2]
  simp only [View.readAt_eq_ld, h2.read_unread, h3.read_unread, h5.read_unread, View.ld_unit_zero (S := S1024x1024) zero_off1_2]

/-- Last block of a half: the output buffer ends at the copy of the accumulator just stored. -/
theorem out1_C_2_eq (c : Dev nD) (i : grid1.Coords) (a2 : Memref sig .tc .vmem S1024x1024 .bf16) (h2 : a2.IsWhole) (a3 : Memref sig .tc .vmem S1024x1024 .bf16) (h3 : a3.IsWhole) (a4 : Memref sig .tc .vmem S1x1024x1024 .f32) (h4 : a4.IsWhole) (a5 : Memref sig .tc .vmem S1024x1024 .f32) (h5 : a5.IsWhole) (hc0 : ¬cond1_0 i) (hc1 : cond1_1 i) (x0 x1 : Vec F S1024x1024 .bf16) (xs0 : Vec F S1024x1024 .f32) :
    out1_C_2 c i a2 h2 a3 h3 a4 h4 a5 h5 hc0 hc1 x0 x1 xs0 = k1_pay3 (k1_pay2 x0 x1 xs0) := by
  unfold out1_C_2
  rw [View.read_writes_eq_canon _ _ _ (cover1_C_2 c i a2 h2 a3 h3 a4 h4 a5 h5 hc0 hc1 x0 x1 xs0)]
  unfold kernelRun1_C
  dsimp only
  sl_unfold_words
  rw [View.canon_unit_zero (S := S1x1024x1024) zero_off1_3, View.readCov_unit_zero (S := S1024x1024) _ zero_off1_2]
  simp only [View.readAt_eq_ld, h2.read_unread, h3.read_unread, h5.read_unread, View.ld_unit_zero (S := S1024x1024) zero_off1_2]

end Pieces

/-! ## From blocks to rows of the arrays -/

-- the buffer contents when the region is entered
variable (V : (c : Dev nD) → (b : Ref sig .tc) → Buf (Elt Ideal) ((c : Thread nD τ).loc b))

/-- The K array as the region finds it, by row and column; the V array likewise. -/
abbrev karr1 (c : Dev nD) : Fin 8192 → Fin 1024 → EReal := fun s d => (V c main_v4_0 : S8192x1024.Idx → EReal) (ix2 s d)
abbrev varr1 (c : Dev nD) : Fin 8192 → Fin 1024 → EReal := fun s n => (V c main_v4_1 : S8192x1024.Idx → EReal) (ix2 s n)

/-- The index maps, decided over the grid: at point t the K and V blocks are block row t; the output block is
    slab t / 4. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 4 ∧ win1_2.index t (1 : Fin 3) = 0 ∧ win1_2.index t (2 : Fin 3) = 0 :=
  (by decide +kernel : ∀ t : Fin grid1.N, _)

/-- Row r of the block of 1024 rows at position n. -/
def rowAt1 (n : ℕ) (h : n < cfg1.N) (r : Fin 1024) : Fin 8192 :=
  ⟨n * 1024 + r.val, by have h8 : n < 8 := lt_of_lt_of_eq h (show cfg1.N = 8 from N_1); have := r.isLt; omega⟩

/-- The K block at point t, at (r, d), is K at row 1024 t + r. -/
theorem iblk1_k_apply (c : Dev nD) (t : Fin cfg1.N) (r d : Fin 1024) :
    iblk1 V c 0 t (ix2 r d) = karr1 V c (rowAt1 t.val t.isLt r) d := by
  obtain ⟨e0, e1, -⟩ := block_indices1 t
  unfold iblk1
  show (V c main_v4_0 : S8192x1024.Idx → EReal) (((cfg1.win 0).blk t).view.emb (ix2 r d)) = _
  congr 1
  funext a
  apply Fin.ext
  match a with
  | ⟨0, _⟩ => show win1_0.index t (0 : Fin 2) * 1024 + 1 * r.val = t.val * 1024 + r.val; omega
  | ⟨1, _⟩ => show win1_0.index t (1 : Fin 2) * 1024 + 1 * d.val = d.val; omega

/-- The V block at point t, at (r, n), is V at row 1024 t + r. -/
theorem iblk1_v_apply (c : Dev nD) (t : Fin cfg1.N) (r n : Fin 1024) :
    iblk1 V c 1 t (ix2 r n) = varr1 V c (rowAt1 t.val t.isLt r) n := by
  obtain ⟨-, -, e0, e1, -⟩ := block_indices1 t
  unfold iblk1
  show (V c main_v4_1 : S8192x1024.Idx → EReal) (((cfg1.win 1).blk t).view.emb (ix2 r n)) = _
  congr 1
  funext a
  apply Fin.ext
  match a with
  | ⟨0, _⟩ => show win1_1.index t (0 : Fin 2) * 1024 + 1 * r.val = t.val * 1024 + r.val; omega
  | ⟨1, _⟩ => show win1_1.index t (1 : Fin 2) * 1024 + 1 * n.val = n.val; omega

/-! ## The accumulator after each point -/

/-- The block at position n's share of kᵀv at (d, e): the contraction over its 1024 rows. -/
def blockAt1 (k v : Fin 8192 → Fin 1024 → EReal) (n : ℕ) (h : n < cfg1.N) (d e : Fin 1024) : EReal :=
  ∑ r : Fin 1024, k (rowAt1 n h r) d * v (rowAt1 n h r) e

/-- The running chain: at the first block of a half zero plus the block's share, afterwards what the block before
    left plus the block's share. -/
def accAt1 (k v : Fin 8192 → Fin 1024 → EReal) : (n : ℕ) → n < cfg1.N → Fin 1024 → Fin 1024 → EReal
  | 0, h => fun d e => 0 + blockAt1 k v 0 h d e
  | n + 1, h => fun d e =>
    if (n + 1) % 4 = 0 then 0 + blockAt1 k v (n + 1) h d e
    else accAt1 k v n (Nat.lt_of_succ_lt h) d e + blockAt1 k v (n + 1) h d e

theorem accAt1_zero (k v : Fin 8192 → Fin 1024 → EReal) (h : 0 < cfg1.N) (d e : Fin 1024) :
    accAt1 k v 0 h d e = 0 + blockAt1 k v 0 h d e := rfl

theorem accAt1_succ (k v : Fin 8192 → Fin 1024 → EReal) (n : ℕ) (h : n + 1 < cfg1.N) (d e : Fin 1024) :
    accAt1 k v (n + 1) h d e = if (n + 1) % 4 = 0 then 0 + blockAt1 k v (n + 1) h d e
      else accAt1 k v n (Nat.lt_of_succ_lt h) d e + blockAt1 k v (n + 1) h d e := rfl

/-- The contraction of two blocks that hold the rows of position n is the block's share. -/
theorem contraction1 (k v : Fin 8192 → Fin 1024 → EReal) (n : ℕ) (h : n < cfg1.N) (x0 x1 : Vec Ideal S1024x1024 .bf16)
    (hx0 : ∀ r d : Fin 1024, x0 (ix2 r d) = k (rowAt1 n h r) d) (hx1 : ∀ r e : Fin 1024, x1 (ix2 r e) = v (rowAt1 n h r) e)
    (d e : Fin 1024) :
    ∑ r : Fin 1024, x0 (ix2 r d) * x1 (ix2 r e) = blockAt1 k v n h d e :=
  Finset.sum_congr rfl fun r _ => by rw [hx0 r d, hx1 r e]

/-- At the first block of a half the accumulator ends at zero plus the block's share. -/
theorem acc1_first (c : Dev nD) (t : Fin cfg1.N) (h0 : t.val % 4 = 0) (h1 : ¬t.val % 4 = 3) (d e : Fin 1024) :
    (outsAt1 (F := Ideal) V c t.val t.isLt).2 (ix2 d e) = 0 + blockAt1 (karr1 V c) (varr1 V c) t.val t.isLt d e := by
  rw [outsAt1_A V c t h0 h1]
  dsimp only
  refine (congrFun (sout1_A_0_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix2 d e)).trans ?_
  refine (pay1_2_apply (iblk1 V c 0 t) (iblk1 V c 1 t) (k1_pay1 (F := Ideal)) d e).trans ?_
  rw [pay1_1_apply (ix2 d e), contraction1 (karr1 V c) (varr1 V c) t.val t.isLt (iblk1 V c 0 t) (iblk1 V c 1 t) (iblk1_k_apply V c t) (iblk1_v_apply V c t) d e]

/-- At any later block of a half it ends at what the block before left plus the block's share. -/
theorem acc1_later (c : Dev nD) (t : Fin cfg1.N) (h0 : ¬t.val % 4 = 0) (d e : Fin 1024) :
    (outsAt1 (F := Ideal) V c t.val t.isLt).2 (ix2 d e)
      = (outsAt1 (F := Ideal) V c (t.val - 1) (Nat.lt_of_le_of_lt (Nat.sub_le _ _) t.isLt)).2 (ix2 d e)
        + blockAt1 (karr1 V c) (varr1 V c) t.val t.isLt d e := by
  by_cases h1 : t.val % 4 = 3
  · rw [outsAt1_C V c t h0 h1]
    dsimp only
    refine (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 d e)).trans ?_
    refine (pay1_2_apply (iblk1 V c 0 t) (iblk1 V c 1 t) (outsAt1 V c (t.val - 1) (Nat.lt_of_le_of_lt (Nat.sub_le _ _) t.isLt)).2 d e).trans ?_
    rw [contraction1 (karr1 V c) (varr1 V c) t.val t.isLt (iblk1 V c 0 t) (iblk1 V c 1 t) (iblk1_k_apply V c t) (iblk1_v_apply V c t) d e]
  · rw [outsAt1_B V c t h0 h1]
    dsimp only
    refine (congrFun (sout1_B_0_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 d e)).trans ?_
    refine (pay1_2_apply (iblk1 V c 0 t) (iblk1 V c 1 t) (outsAt1 V c (t.val - 1) (Nat.lt_of_le_of_lt (Nat.sub_le _ _) t.isLt)).2 d e).trans ?_
    rw [contraction1 (karr1 V c) (varr1 V c) t.val t.isLt (iblk1 V c 0 t) (iblk1 V c 1 t) (iblk1_k_apply V c t) (iblk1_v_apply V c t) d e]

/-- THE INVARIANT: after every point the accumulator holds the running chain. -/
theorem acc1_eq (c : Dev nD) : ∀ (n : ℕ) (h : n < cfg1.N) (d e : Fin 1024),
    (outsAt1 (F := Ideal) V c n h).2 (ix2 d e) = accAt1 (karr1 V c) (varr1 V c) n h d e
  | 0, h, d, e => acc1_first V c ⟨0, h⟩ rfl (fun h3 => absurd (show 0 % 4 = 3 from h3) (by decide)) d e
  | n + 1, h, d, e => by
    rw [accAt1_succ]
    by_cases h0 : (n + 1) % 4 = 0
    · rw [if_pos h0]
      exact acc1_first V c ⟨n + 1, h⟩ h0 (fun h3 => by have h3' : (n + 1) % 4 = 3 := h3; omega) d e
    · rw [if_neg h0, ← acc1_eq c n (Nat.lt_of_succ_lt h) d e]
      exact acc1_later V c ⟨n + 1, h⟩ h0 d e

/-! ## The chain at a half's last block is the half's share -/

theorem rowAt1_eq (cc : Fin 2) (j : Fin 4) (n : ℕ) (h : n < cfg1.N) (hn : n = cc.val * 4 + j.val) (r : Fin 1024) :
    rowAt1 n h r = Cert.Spec.row cc j r :=
  Fin.ext (by show n * 1024 + r.val = (cc.val * 4 + j.val) * 1024 + r.val; rw [hn])

/-- The block at position 4 c + j is block j of half c. -/
theorem blockAt1_eq (k v : Fin 8192 → Fin 1024 → EReal) (cc : Fin 2) (j : Fin 4) (n : ℕ) (h : n < cfg1.N)
    (hn : n = cc.val * 4 + j.val) (d e : Fin 1024) :
    blockAt1 k v n h d e = Cert.Spec.blockKtV k v cc j d e :=
  Finset.sum_congr rfl fun r _ => by rw [rowAt1_eq cc j n h hn r]

theorem accAt1_congr (k v : Fin 8192 → Fin 1024 → EReal) (n m : ℕ) (h : n < cfg1.N) (h' : m < cfg1.N) (hnm : n = m)
    (d e : Fin 1024) : accAt1 k v n h d e = accAt1 k v m h' d e := by
  subst hnm; rfl

/-- After the fourth block of the first half the chain is that half's four shares added onto zero in order. -/
theorem accAt1_3 (k v : Fin 8192 → Fin 1024 → EReal) (h0 : 0 < cfg1.N) (h1 : 1 < cfg1.N) (h2 : 2 < cfg1.N) (h3 : 3 < cfg1.N)
    (d e : Fin 1024) :
    accAt1 k v 3 h3 d e
      = (((0 + blockAt1 k v 0 h0 d e) + blockAt1 k v 1 h1 d e) + blockAt1 k v 2 h2 d e) + blockAt1 k v 3 h3 d e := rfl

/-- The same for the second half: the chain starts again from zero at its first block. -/
theorem accAt1_7 (k v : Fin 8192 → Fin 1024 → EReal) (h4 : 4 < cfg1.N) (h5 : 5 < cfg1.N) (h6 : 6 < cfg1.N) (h7 : 7 < cfg1.N)
    (d e : Fin 1024) :
    accAt1 k v 7 h7 d e
      = (((0 + blockAt1 k v 4 h4 d e) + blockAt1 k v 5 h5 d e) + blockAt1 k v 6 h6 d e) + blockAt1 k v 7 h7 d e := rfl

/-- At the last block of half c the chain is half c's share of kᵀv. -/
theorem accAt1_last (k v : Fin 8192 → Fin 1024 → EReal) (cc : Fin 2) (n : ℕ) (h : n < cfg1.N) (hn : n = cc.val * 4 + 3)
    (d e : Fin 1024) : accAt1 k v n h d e = Cert.Spec.halfKtV k v cc d e := by
  have hN : cfg1.N = 8 := N_1
  unfold Cert.Spec.halfKtV
  match cc, hn with
  | ⟨0, _⟩, hn =>
    have hn3 : n = 3 := hn
    rw [accAt1_congr k v n 3 h (by omega) hn3 d e, accAt1_3 k v (by omega) (by omega) (by omega) (by omega) d e,
      blockAt1_eq k v 0 0 0 _ rfl d e, blockAt1_eq k v 0 1 1 _ rfl d e, blockAt1_eq k v 0 2 2 _ rfl d e,
      blockAt1_eq k v 0 3 3 _ rfl d e]
    rfl
  | ⟨1, _⟩, hn =>
    have hn7 : n = 7 := hn
    rw [accAt1_congr k v n 7 h (by omega) hn7 d e, accAt1_7 k v (by omega) (by omega) (by omega) (by omega) d e,
      blockAt1_eq k v 1 0 4 _ rfl d e, blockAt1_eq k v 1 1 5 _ rfl d e, blockAt1_eq k v 1 2 6 _ rfl d e,
      blockAt1_eq k v 1 3 7 _ rfl d e]
    rfl

/-! ## The output array -/

/-- What the region should leave in its output array: at (c, d, n), half c's share of kᵀv. -/
def halves1 (c : Dev nD) : S2x1024x1024.Idx → EReal :=
  fun i => Cert.Spec.halfKtV (karr1 V c) (varr1 V c) (i 0) (i 1) (i 2)

theorem halves1_apply (c : Dev nD) (cc : Fin 2) (d e : Fin 1024) :
    halves1 V c (ix3 cc d e) = Cert.Spec.halfKtV (karr1 V c) (varr1 V c) cc d e := rfl

/-- At a half's last block the output buffer, at (z, d, e), is the accumulator just stored, at (d, e). -/
theorem out1_last (c : Dev nD) (t : Fin cfg1.N) (h3 : t.val % 4 = 3) (z : Fin 1) (d e : Fin 1024) :
    (outsAt1 (F := Ideal) V c t.val t.isLt).1 (ix3 z d e) = (outsAt1 (F := Ideal) V c t.val t.isLt).2 (ix2 d e) := by
  have h0 : ¬t.val % 4 = 0 := by omega
  rw [outsAt1_C V c t h0 h3]
  dsimp only
  refine (congrFun (out1_C_2_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2) (ix3 z d e)).trans ?_
  refine (pay1_3_apply (k1_pay2 (F := Ideal) (iblk1 V c 0 t) (iblk1 V c 1 t) (outsAt1 V c (t.val - 1) (Nat.lt_of_le_of_lt (Nat.sub_le _ _) t.isLt)).2) z d e).trans ?_
  exact (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2) (ix2 d e)).symm

/-- Where the output block at point t places (z, d, e): slab t / 4, row d, column e. -/
theorem emb1_2 (t : Fin cfg1.N) (z : Fin 1) (d e : Fin 1024) (cc : Fin 2) (hcc : cc.val = t.val / 4) :
    ((cfg1.win 2).blk t).view.emb (ix3 z d e) = (ix3 cc d e : S2x1024x1024.Idx) := by
  obtain ⟨-, -, -, -, e0, e1, e2⟩ := block_indices1 t
  have hz : z.val = 0 := by have := z.isLt; omega
  funext a
  apply Fin.ext
  match a with
  | ⟨0, _⟩ => show win1_2.index t (0 : Fin 3) * 1 + 1 * z.val = cc.val; omega
  | ⟨1, _⟩ => show win1_2.index t (1 : Fin 3) * 1024 + 1 * d.val = d.val; omega
  | ⟨2, _⟩ => show win1_2.index t (2 : Fin 3) * 1024 + 1 * e.val = e.val; omega

/-- What a half's last block writes back is the half's slab of `halves1`. -/
theorem flushed1_2_eq (c : Dev nD) (t : Fin cfg1.N) (hf : (cfg1.win 2).flush t = true) :
    (dat1 (F := Ideal) V c).flushed 2 t = ((cfg1.win 2).blk t).view.read (Elt Ideal) (halves1 V c) := by
  have h3 : t.val % 4 = 3 := (flush1_2 t).mp hf
  have h8 : t.val < 8 := lt_of_lt_of_eq t.isLt (show cfg1.N = 8 from N_1)
  show (cfg1.win 2).cut (grid1.coords t) ((dat1 V c).after 2 t) = _
  rw [after1_2]
  funext j
  obtain ⟨z, d, e, rfl⟩ : ∃ (z : Fin 1) (d e : Fin 1024), j = ix3 z d e := ⟨j 0, j 1, j 2, eq_ix3 j⟩
  show (outsAt1 V c t.val t.isLt).1 (ix3 z d e) = halves1 V c (((cfg1.win 2).blk t).view.emb (ix3 z d e))
  rw [emb1_2 t z d e ⟨t.val / 4, by omega⟩ rfl, halves1_apply]
  refine (out1_last V c t h3 z d e).trans ?_
  refine (acc1_eq V c t.val t.isLt d e).trans ?_
  exact accAt1_last (karr1 V c) (varr1 V c) ⟨t.val / 4, by omega⟩ t.val t.isLt (by show t.val = t.val / 4 * 4 + 3; omega) d e

/-- An index of the array is in point t's output block iff each coordinate is in the block's range on its axis. -/
theorem mem_blk1_2 (t : Fin cfg1.N) (i : S2x1024x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v5).slice (win1_2.rect t)).set ↔ _
  rw [View.set_slice_whole, Rect.mem_set_unit]
  exact Iff.rfl

/-- The two slabs tile the array: slab c is written back at point 4 c + 3. -/
theorem tiles1_2 (i : S2x1024x1024.Idx) :
    ∃ t : Fin cfg1.N, (cfg1.win 2).flush t = true ∧ i ∈ ((cfg1.win 2).blk t).view.set := by
  have hi0 : (i 0).val < 2 := (i 0).isLt
  have hi1 : (i 1).val < 1024 := (i 1).isLt
  have hi2 : (i 2).val < 1024 := (i 2).isLt
  have hN : cfg1.N = 8 := N_1
  have ht : (i 0).val * 4 + 3 < cfg1.N := by omega
  obtain ⟨-, -, -, -, e0, e1, e2⟩ := block_indices1 ⟨(i 0).val * 4 + 3, ht⟩
  have e0' : win1_2.index ⟨(i 0).val * 4 + 3, ht⟩ (0 : Fin 3) = ((i 0).val * 4 + 3) / 4 := e0
  refine ⟨⟨(i 0).val * 4 + 3, ht⟩, (flush1_2 _).mpr (by show ((i 0).val * 4 + 3) % 4 = 3; omega), ?_⟩
  rw [mem_blk1_2]
  intro a
  match a with
  | ⟨0, _⟩ => show win1_2.index ⟨(i 0).val * 4 + 3, ht⟩ (0 : Fin 3) * 1 ≤ (i 0).val ∧ (i 0).val < win1_2.index ⟨(i 0).val * 4 + 3, ht⟩ (0 : Fin 3) * 1 + 1; omega
  | ⟨1, _⟩ => show win1_2.index ⟨(i 0).val * 4 + 3, ht⟩ (1 : Fin 3) * 1024 ≤ (i 1).val ∧ (i 1).val < win1_2.index ⟨(i 0).val * 4 + 3, ht⟩ (1 : Fin 3) * 1024 + 1024; omega
  | ⟨2, _⟩ => show win1_2.index ⟨(i 0).val * 4 + 3, ht⟩ (2 : Fin 3) * 1024 ≤ (i 2).val ∧ (i 2).val < win1_2.index ⟨(i 0).val * 4 + 3, ht⟩ (2 : Fin 3) * 1024 + 1024; omega

/-- THE OUTPUT ARRAY after the region: at (c, d, n), half c's four block shares added onto zero in order. -/
theorem final1_2_halves (c : Dev nD) : (dat1 (F := Ideal) V c).arrAt 2 cfg1.N = halves1 V c :=
  (dat1 V c).arrAt_eq_of_cover 2 (halves1 V c) (flushed1_2_eq V c) tiles1_2

/-- The same with the K and V arrays written out. -/
theorem final1_2 (c : Dev nD) : (dat1 (F := Ideal) V c).arrAt 2 cfg1.N = fun i : S2x1024x1024.Idx =>
    Cert.Spec.halfKtV (fun s d => V c main_v4_0 (ix2 s d)) (fun s n => V c main_v4_1 (ix2 s n)) (i 0) (i 1) (i 2) :=
  final1_2_halves V c

end Cert.KernelIdeal.Hand

end
-- ==== Proof.KI.Val2.lean ====
/-
  The third kernel region (the Q projection fused with the product by kᵀv), its output array read index by index.

  On the extended reals the format changes are the identity and a matrix product into the zero accumulator is the plain
  sum, so the body leaves in its output buffer, at (p, q), ∑_d (∑ₐ (block of x)(p, a) · wq(a, d)) · M(d, q). The block
  of x at grid point t is rows 1024 t … 1024 t + 1023 of x and the blocks of wq and of M are the whole matrices, so what
  point t writes back is block t of the one whole-array function (r, q) ↦ ∑_d (∑ₐ x(r, a) · wq(a, d)) · M(d, q); the
  eight blocks tile the 8192 rows (row r lies in block r / 1024), so the array ends holding that function.
-/
import proofs.«107815_j68736656605705_2_alg».proof.Proof.KI.Data2
import proofs.«107815_j68736656605705_2_alg».proof.Proof.KI.Product
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## What the body leaves in the output buffer, at an entry -/

/-- The output's buffer at (p, q): row p of (block of x)·wq against column q of M. -/
theorem out2_3_apply (x0 x1 : Vec Ideal S1024x1024 .bf16) (x2 : Vec Ideal S1024x1024 .f32) (p q : Fin 1024) :
    out2_3 (F := Ideal) x0 x1 x2 (ix2 p q)
      = ∑ d : Fin 1024, (∑ a : Fin 1024, x0 (ix2 p a) * x1 (ix2 a d)) * x2 (ix2 d q) := by
  unfold out2_3
  rw [View.canon_unit_zero zero_off, View.ld_unit_zero (S := S1024x1024) zero_off, View.ld_unit_zero (S := S1024x1024) zero_off,
    View.ld_unit_zero (S := S1024x1024) zero_off]
  unfold k2_pay1
  rw [shapeCast_self, shapeCast_self, shapeCast_self]
  refine (matmulRC_apply (φ₁ := .bf16) (φ₂ := .bf16) _ _ p q).trans ?_
  refine Finset.sum_congr rfl fun d _ => ?_
  exact congrArg (· * x2 (ix2 d q)) (matmulRC_apply (φ₁ := .bf16) (φ₂ := .bf16) x0 x1 p d)

/-! ## From blocks to the array -/

-- the buffer contents when the region is entered
variable (V : (c : Dev nD) → (b : Ref sig .tc) → Buf (Elt Ideal) ((c : Thread nD τ).loc b))

/-- Rows of an [8192, 1024] matrix against a [1024, 1024] one, and the result against a second [1024, 1024] one:
    the two products, index by index. -/
def rowsByColsTwice (x : S8192x1024.Idx → EReal) (w m : S1024x1024.Idx → EReal) : S8192x1024.Idx → EReal :=
  fun i => ∑ d : Fin 1024, (∑ a : Fin 1024, x (ix2 (i 0) a) * w (ix2 a d)) * m (ix2 d (i 1))

theorem rowsByColsTwice_apply (x : S8192x1024.Idx → EReal) (w m : S1024x1024.Idx → EReal) (r : Fin 8192) (q : Fin 1024) :
    rowsByColsTwice x w m (ix2 r q) = ∑ d : Fin 1024, (∑ a : Fin 1024, x (ix2 r a) * w (ix2 a d)) * m (ix2 d q) := rfl

/-- The index maps, decided over the grid: at point t the block of x and the output block are block row t, the
    blocks of wq and of M are the whole matrices. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of x at point t, at (p, a), is x at row 1024 t + p. -/
theorem iblk2_x_apply (c : Dev nD) (t : Fin cfg2.N) (p a : Fin 1024) (r : Fin 8192) (hr : r.val = t.val * 1024 + p.val) :
    iblk2 V c 0 t (ix2 p a) = (V c main_v0 : S8192x1024.Idx → EReal) (ix2 r a) := by
  obtain ⟨e0, e1, -⟩ := block_indices2 t
  unfold iblk2
  show (V c main_v0 : S8192x1024.Idx → EReal) (((cfg2.win 0).blk t).view.emb (ix2 p a)) = _
  congr 1
  funext d
  apply Fin.ext
  match d with
  | ⟨0, _⟩ => show win2_0.index t (0 : Fin 2) * 1024 + 1 * p.val = r.val; omega
  | ⟨1, _⟩ => show win2_0.index t (1 : Fin 2) * 1024 + 1 * a.val = a.val; omega

/-- The block of wq at any point is wq. -/
theorem iblk2_wq_apply (c : Dev nD) (t : Fin cfg2.N) (a d : Fin 1024) :
    iblk2 V c 1 t (ix2 a d) = (V c main_v1 : S1024x1024.Idx → EReal) (ix2 a d) := by
  obtain ⟨-, -, e0, e1, -⟩ := block_indices2 t
  unfold iblk2
  show (V c main_v1 : S1024x1024.Idx → EReal) (((cfg2.win 1).blk t).view.emb (ix2 a d)) = _
  congr 1
  funext b
  apply Fin.ext
  match b with
  | ⟨0, _⟩ => show win2_1.index t (0 : Fin 2) * 1024 + 1 * a.val = a.val; omega
  | ⟨1, _⟩ => show win2_1.index t (1 : Fin 2) * 1024 + 1 * d.val = d.val; omega

/-- The block of M at any point is M. -/
theorem iblk2_m_apply (c : Dev nD) (t : Fin cfg2.N) (d q : Fin 1024) :
    iblk2 V c 2 t (ix2 d q) = (V c main_v6 : S1024x1024.Idx → EReal) (ix2 d q) := by
  obtain ⟨-, -, -, -, e0, e1, -⟩ := block_indices2 t
  unfold iblk2
  show (V c main_v6 : S1024x1024.Idx → EReal) (((cfg2.win 2).blk t).view.emb (ix2 d q)) = _
  congr 1
  funext b
  apply Fin.ext
  match b with
  | ⟨0, _⟩ => show win2_2.index t (0 : Fin 2) * 1024 + 1 * d.val = d.val; omega
  | ⟨1, _⟩ => show win2_2.index t (1 : Fin 2) * 1024 + 1 * q.val = q.val; omega

/-- Where the output's block at point t places (p, q): row 1024 t + p, column q. -/
theorem emb2_3 (t : Fin cfg2.N) (p q : Fin 1024) (r : Fin 8192) (hr : r.val = t.val * 1024 + p.val) :
    ((cfg2.win 3).blk t).view.emb (ix2 p q) = (ix2 r q : S8192x1024.Idx) := by
  obtain ⟨-, -, -, -, -, -, e0, e1⟩ := block_indices2 t
  funext b
  apply Fin.ext
  match b with
  | ⟨0, _⟩ => show win2_3.index t (0 : Fin 2) * 1024 + 1 * p.val = r.val; omega
  | ⟨1, _⟩ => show win2_3.index t (1 : Fin 2) * 1024 + 1 * q.val = q.val; omega

/-- The row of the array that (t, p) names. -/
def rowAt2 (t : Fin cfg2.N) (p : Fin 1024) : Fin 8192 :=
  ⟨t.val * 1024 + p.val, by have h : t.val < 8 := t.isLt; have := p.isLt; omega⟩

/-- What point t writes back is block t of (x·wq)·M. -/
theorem flushed2_3_eq (c : Dev nD) (t : Fin cfg2.N) :
    (dat2 (F := Ideal) V c).flushed 3 t
      = ((cfg2.win 3).blk t).view.read (Elt Ideal) (rowsByColsTwice (V c main_v0) (V c main_v1) (V c main_v6)) := by
  show (cfg2.win 3).cut (grid2.coords t) ((dat2 V c).after 3 t) = _
  rw [after2_3]
  funext j
  obtain ⟨p, q, rfl⟩ : ∃ (p q : Fin 1024), j = ix2 p q := ⟨j 0, j 1, eq_ix2 j⟩
  show out2_3 (iblk2 V c 0 t) (iblk2 V c 1 t) (iblk2 V c 2 t) (ix2 p q)
    = rowsByColsTwice (V c main_v0) (V c main_v1) (V c main_v6) (((cfg2.win 3).blk t).view.emb (ix2 p q))
  refine (out2_3_apply _ _ _ p q).trans ?_
  rw [emb2_3 t p q (rowAt2 t p) rfl, rowsByColsTwice_apply]
  refine Finset.sum_congr rfl fun d _ => ?_
  rw [iblk2_m_apply V c t d q]
  refine congrArg (· * (V c main_v6 : S1024x1024.Idx → EReal) (ix2 d q)) ?_
  refine Finset.sum_congr rfl fun a _ => ?_
  rw [iblk2_x_apply V c t p a (rowAt2 t p) rfl, iblk2_wq_apply V c t a d]

/-- An index of the array is in point t's block iff each coordinate is in the block's range on its axis. -/
theorem mem_blk2_3 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v7).slice (win2_3.rect t)).set ↔ _
  rw [View.set_slice_whole, Rect.mem_set_unit]
  exact Iff.rfl

/-- The point whose block holds row r: r / 1024. -/
def pointOf2 (i : S8192x1024.Idx) : Fin cfg2.N :=
  ⟨(i 0).val / 1024, by have h : (i 0).val < 8192 := (i 0).isLt; show (i 0).val / 1024 < 8; omega⟩

theorem pointOf2_val (i : S8192x1024.Idx) : (pointOf2 i).val = (i 0).val / 1024 := rfl

/-- The eight blocks tile the array: row r lies in block r / 1024. -/
theorem tiles2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨-, -, -, -, -, -, e0, e1⟩ := block_indices2 (pointOf2 i)
  have hp := pointOf2_val i
  refine ⟨pointOf2 i, flush2_3 (pointOf2 i), ?_⟩
  rw [mem_blk2_3]
  intro a
  match a with
  | ⟨0, _⟩ => show win2_3.index (pointOf2 i) (0 : Fin 2) * 1024 ≤ (i 0).val ∧ (i 0).val < win2_3.index (pointOf2 i) (0 : Fin 2) * 1024 + 1024; omega
  | ⟨1, _⟩ => show win2_3.index (pointOf2 i) (1 : Fin 2) * 1024 ≤ (i 1).val ∧ (i 1).val < win2_3.index (pointOf2 i) (1 : Fin 2) * 1024 + 1024; omega

/-- THE OUTPUT ARRAY after the region: (x·wq)·M, index by index. -/
theorem final2_3 (c : Dev nD) :
    (dat2 (F := Ideal) V c).arrAt 3 cfg2.N = rowsByColsTwice (V c main_v0) (V c main_v1) (V c main_v6) :=
  (dat2 V c).arrAt_eq_of_cover 3 (rowsByColsTwice (V c main_v0) (V c main_v1) (V c main_v6)) (fun t _ => flushed2_3_eq V c t) tiles2_3

end Cert.KernelIdeal.Hand

end
-- ==== Proof.KI.KernelValue.lean ====
/-
  The whole program's result is q · (kᵀv).

  The program is five stretches: the arguments converted to the narrow format (the identity on the ideal values);
  the region that forms k = x·wk and v = x·wv; the region that forms the two halves' shares of kᵀv, each half's four
  blocks of rows contracted and added one after the other onto zero; the host's sum of the two halves onto zero; and
  the region that forms (x·wq)·M for the summed matrix M. Here the contents of each buffer the next stretch reads are
  walked back, stretch by stretch, to the four arguments: a region's output array holds what its write-backs leave, an
  input array is handed back as it came, a buffer a stretch does not touch is kept. Composed, the result array is the
  specification's q · (kᵀv) of the arguments — every piece is the specification's by unfolding, no algebra is used.
-/
import proofs.«107815_j68736656605705_2_alg».proof.Proof.KI.MainRun
import proofs.«107815_j68736656605705_2_alg».proof.Proof.KI.Val0
import proofs.«107815_j68736656605705_2_alg».proof.Proof.KI.Val2
import proofs.«107815_j68736656605705_2_alg».proof.Proof.Spec
import Idealize.ShloMosaic.Lib.StableHlo.Run
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-! ## The shapes the regions' values take -/

/-- The two halves' shares of kᵀv as one [2, 1024, 1024] array, from k and v as [8192, 1024] arrays:
    entry (c, d, n) is half c's four blocks of rows, contracted and added one after the other onto zero. -/
def kv_halves (k v : S8192x1024.Idx → EReal) : S2x1024x1024.Idx → EReal :=
  fun i => Cert.Spec.halfKtV (fun s d => k (ix2 s d)) (fun s n => v (ix2 s n)) (i 0) (i 1) (i 2)

/-- The host's sum of the two halves onto zero: entry (d, n) is 0 + p(0, d, n) + p(1, d, n). -/
def kv_sumHalves (p : S2x1024x1024.Idx → EReal) : S1024x1024.Idx → EReal :=
  fun i => 0 + ∑ cc : Fin 2, p (ix3 cc (i 0) (i 1))

/-- The host's reduction over the leading axis from the zero constant is `kv_sumHalves`. -/
theorem kv_reduceAdd_halves (h' : S2x1024x1024.ReducesTo [0] S1024x1024) (hu : 0 < S_.numel) (p : FVec Ideal S2x1024x1024 .f32) :
    Host.reduceAdd (F := Ideal) p (constant (F := Ideal) S_ .f32 0x00000000#32) h' hu = kv_sumHalves p := by
  funext i
  unfold kv_sumHalves
  simp only [Host.reduceAdd, Ideal.hostReduceAdd_def]
  rw [Ideal.hostReduceAdd_single h' (by decide), constant_apply, Ideal.ofBits_zero_f32]
  refine congrArg (0 + ·) (Finset.sum_congr rfl fun k _ => ?_)
  exact congrArg p (funext fun a => Fin.ext (by match a with | ⟨0, _⟩ => rfl | ⟨1, _⟩ => rfl | ⟨2, _⟩ => rfl))

/-- With k = x·wk and v = x·wv, the last region's two products over the host's sum of the halves are the
    specification's q · (kᵀv): every piece is the specification's by unfolding. -/
theorem kv_shape_eq (x : S8192x1024.Idx → EReal) (wq wk wv : S1024x1024.Idx → EReal) :
    rowsByColsTwice x wq (kv_sumHalves (kv_halves (rowsByCols x wk) (rowsByCols x wv))) = Cert.Spec.kernelOut x wq wk wv := by
  funext i
  rfl

/-! ## The conversions: at the ideal values a change of format is the identity -/

theorem kv_W1_v0 : (W1 (F := Ideal) m ρ c (Proc.devRef .tc main_v0) : S8192x1024.Idx → EReal) = m ((c : Thread nD τ).loc main_arg0) := by
  show StableHlo.after hostOps0 (W0 m ρ c) (Proc.devRef .tc main_v0) = _
  after_results
  rfl
theorem kv_W1_v1 : (W1 (F := Ideal) m ρ c (Proc.devRef .tc main_v1) : S1024x1024.Idx → EReal) = m ((c : Thread nD τ).loc main_arg1) := by
  show StableHlo.after hostOps0 (W0 m ρ c) (Proc.devRef .tc main_v1) = _
  after_results
  rfl
theorem kv_W1_v2 : (W1 (F := Ideal) m ρ c (Proc.devRef .tc main_v2) : S1024x1024.Idx → EReal) = m ((c : Thread nD τ).loc main_arg2) := by
  show StableHlo.after hostOps0 (W0 m ρ c) (Proc.devRef .tc main_v2) = _
  after_results
  rfl
theorem kv_W1_v3 : (W1 (F := Ideal) m ρ c (Proc.devRef .tc main_v3) : S1024x1024.Idx → EReal) = m ((c : Thread nD τ).loc main_arg3) := by
  show StableHlo.after hostOps0 (W0 m ρ c) (Proc.devRef .tc main_v3) = _
  after_results
  rfl

/-! ## After the first region: k = x·wk and v = x·wv -/

theorem kv_W2_v4_0 : (W2 (F := Ideal) m ρ c (Proc.devRef .tc main_v4_0) : S8192x1024.Idx → EReal)
    = rowsByCols (m ((c : Thread nD τ).loc main_arg0)) (m ((c : Thread nD τ).loc main_arg2)) := by
  refine (W2_arr m ρ c 3).trans ((final0_3 (V1 m ρ) c).trans ?_)
  show rowsByCols (W1 m ρ c (Proc.devRef .tc main_v0)) (W1 m ρ c (Proc.devRef .tc main_v2)) = _
  rw [kv_W1_v0, kv_W1_v2]
theorem kv_W2_v4_1 : (W2 (F := Ideal) m ρ c (Proc.devRef .tc main_v4_1) : S8192x1024.Idx → EReal)
    = rowsByCols (m ((c : Thread nD τ).loc main_arg0)) (m ((c : Thread nD τ).loc main_arg3)) := by
  refine (W2_arr m ρ c 4).trans ((final0_4 (V1 m ρ) c).trans ?_)
  show rowsByCols (W1 m ρ c (Proc.devRef .tc main_v0)) (W1 m ρ c (Proc.devRef .tc main_v3)) = _
  rw [kv_W1_v0, kv_W1_v3]

/-- The converted input is an input window of the first region, so the region hands it back as it came. -/
theorem kv_W2_v0 : (W2 (F := Ideal) m ρ c (Proc.devRef .tc main_v0) : S8192x1024.Idx → EReal) = m ((c : Thread nD τ).loc main_arg0) := by
  refine (W2_arr m ρ c 0).trans (((dat0 (V1 m ρ) c).arrAt_in 0 rfl cfg0.N).trans ((A_eq0 (V1 m ρ) c 0).trans ?_))
  exact kv_W1_v0 m ρ c
/-- The converted wq is no array of the first region. -/
theorem kv_W2_v1 : (W2 (F := Ideal) m ρ c (Proc.devRef .tc main_v1) : S1024x1024.Idx → EReal) = m ((c : Thread nD τ).loc main_arg1) :=
  (W2_of_ne m ρ c main_v1 (by decide)).trans (kv_W1_v1 m ρ c)

/-! ## After the second region: the two halves of kᵀv -/

section
variable (h12 : ∀ (V : (c : Dev nD) → (b : Ref sig .tc) → Buf (Elt Ideal) ((c : Thread nD τ).loc b)) (c : Dev nD),
    (dat1 (F := Ideal) V c).arrAt 2 cfg1.N = kv_halves (V c main_v4_0) (V c main_v4_1))
include h12

theorem kv_W3_v5 : (W3 (F := Ideal) m ρ c (Proc.devRef .tc main_v5) : S2x1024x1024.Idx → EReal)
    = kv_halves (rowsByCols (m ((c : Thread nD τ).loc main_arg0)) (m ((c : Thread nD τ).loc main_arg2)))
        (rowsByCols (m ((c : Thread nD τ).loc main_arg0)) (m ((c : Thread nD τ).loc main_arg3))) := by
  refine (W3_arr m ρ c 2).trans ((h12 (V2 m ρ) c).trans ?_)
  show kv_halves (W2 m ρ c (Proc.devRef .tc main_v4_0)) (W2 m ρ c (Proc.devRef .tc main_v4_1)) = _
  rw [kv_W2_v4_0, kv_W2_v4_1]
end

theorem kv_W3_v0 : (W3 (F := Ideal) m ρ c (Proc.devRef .tc main_v0) : S8192x1024.Idx → EReal) = m ((c : Thread nD τ).loc main_arg0) :=
  (W3_of_ne m ρ c main_v0 (by decide)).trans (kv_W2_v0 m ρ c)
theorem kv_W3_v1 : (W3 (F := Ideal) m ρ c (Proc.devRef .tc main_v1) : S1024x1024.Idx → EReal) = m ((c : Thread nD τ).loc main_arg1) :=
  (W3_of_ne m ρ c main_v1 (by decide)).trans (kv_W2_v1 m ρ c)

/-! ## After the host's sum of the halves -/

theorem kv_W4_v6 : (W4 (F := Ideal) m ρ c (Proc.devRef .tc main_v6) : S1024x1024.Idx → EReal)
    = kv_sumHalves (W3 (F := Ideal) m ρ c (Proc.devRef .tc main_v5)) := by
  show StableHlo.after hostOps2 (W3 m ρ c) (Proc.devRef .tc main_v6) = _
  after_results
  exact kv_reduceAdd_halves _ _ _
theorem kv_W4_v0 : (W4 (F := Ideal) m ρ c (Proc.devRef .tc main_v0) : S8192x1024.Idx → EReal) = m ((c : Thread nD τ).loc main_arg0) := by
  refine Eq.trans ?_ (kv_W3_v0 m ρ c)
  show StableHlo.after hostOps2 (W3 m ρ c) (Proc.devRef .tc main_v0) = _
  after_results
theorem kv_W4_v1 : (W4 (F := Ideal) m ρ c (Proc.devRef .tc main_v1) : S1024x1024.Idx → EReal) = m ((c : Thread nD τ).loc main_arg1) := by
  refine Eq.trans ?_ (kv_W3_v1 m ρ c)
  show StableHlo.after hostOps2 (W3 m ρ c) (Proc.devRef .tc main_v1) = _
  after_results

/-! ## The result -/

/-- The result array after the whole program is the specification's q · (kᵀv) of the four arguments, given the
    second region's value (its array holds the two halves' shares of kᵀv of the arrays it was handed). -/
theorem result_eq
    (h12 : ∀ (V : (c : Dev nD) → (b : Ref sig .tc) → Buf (Elt Ideal) ((c : Thread nD τ).loc b)) (c : Dev nD),
      (dat1 (F := Ideal) V c).arrAt 2 cfg1.N = kv_halves (V c main_v4_0) (V c main_v4_1))
    (m : (ℓ : Loc nD τ sig) → Buf (Elt Ideal) ℓ) (ρ : Dev nD → PrngReg) (c : Dev nD) :
    W5 (F := Ideal) m ρ c (Proc.devRef .tc main_v7)
      = Cert.Spec.kernelOut (m ((c : Thread nD τ).loc main_arg0)) (m ((c : Thread nD τ).loc main_arg1))
          (m ((c : Thread nD τ).loc main_arg2)) (m ((c : Thread nD τ).loc main_arg3)) := by
  refine (W5_arr m ρ c 3).trans ((final2_3 (V4 m ρ) c).trans ?_)
  show rowsByColsTwice (W4 m ρ c (Proc.devRef .tc main_v0)) (W4 m ρ c (Proc.devRef .tc main_v1)) (W4 m ρ c (Proc.devRef .tc main_v6)) = _
  rw [kv_W4_v0, kv_W4_v1, kv_W4_v6, kv_W3_v5 m ρ c h12]
  exact kv_shape_eq _ _ _ _

end Cert.KernelIdeal.Hand
end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.LibNormalizedSum.lean ====
/-
  A weighted sum divided by the sum of its weights, on the extended reals.

  For real weights `e k` whose sum `l` is not zero and real values `v k`, dividing the weighted sum `∑ₖ e k · v k` by `l`
  is the weighted sum with every weight divided by `l` first. On the extended reals a product does not distribute over a
  sum at the infinities, so the statement is for REAL weights and values: then dividing by `l` is multiplying by the real
  `1 / l`, which moves across a finite sum of reals. This is the law between a softmax that normalises after the
  weighted sum of the values and one that normalises every weight before it. Also: the coercion of the reals into the
  extended reals commutes with finite sums, and a finite sum of reals is a real. Imports only the library.
-/
import Idealize.ShloMosaic.PureOps.Ideal
import Idealize.ShloMosaic.PureOps.Ideal.Laws

noncomputable section

namespace Cert.NormalizedSum

open Idealize.ShloMosaic

/-- The coercion of the reals into the extended reals commutes with finite sums. -/
theorem coe_finsum {α : Type} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of products of reals, taken on the extended reals, is a real. -/
theorem sum_mul_real {ι : Type} [Fintype ι] (a b : ι → EReal) (ha : ∀ k, ∃ r : ℝ, a k = r) (hb : ∀ k, ∃ r : ℝ, b k = r) :
    ∃ r : ℝ, (∑ k, a k * b k) = r := by
  choose ra hra using ha
  choose rb hrb using hb
  refine ⟨∑ k, ra k * rb k, ?_⟩
  rw [coe_finsum]
  exact Finset.sum_congr rfl fun k _ => by rw [hra, hrb, EReal.coe_mul]

/-- Dividing the weighted sum by the sum of the weights is dividing every weight first: real weights with a nonzero
    sum, real values. -/
theorem div_sum_eq_sum_div {ι : Type} [Fintype ι] (e v : ι → ℝ) (h : (∑ k, e k) ≠ 0) :
    Ideal.div (∑ k, (e k : EReal) * (v k : EReal)) (∑ k, (e k : EReal))
      = ∑ k, Ideal.div (e k : EReal) (∑ k', (e k' : EReal)) * (v k : EReal) := by
  rw [← coe_finsum, Ideal.div_coe h]
  have e1 : ∀ k, Ideal.div (e k : EReal) ((∑ k', e k' : ℝ) : EReal) * (v k : EReal) = ((e k * (1 / ∑ k', e k') * v k : ℝ) : EReal) := fun k => by
    rw [Ideal.div_coe h, ← EReal.coe_mul, ← EReal.coe_mul]
  have e2 : ∀ k, (e k : EReal) * (v k : EReal) = ((e k * v k : ℝ) : EReal) := fun k => by rw [← EReal.coe_mul]
  rw [Finset.sum_congr rfl fun k _ => e1 k, Finset.sum_congr rfl fun k _ => e2 k, ← coe_finsum, ← coe_finsum, ← EReal.coe_mul]
  congr 1
  rw [Finset.sum_mul]
  exact Finset.sum_congr rfl fun k _ => by ring

/-- The maximum, folded from the bottom element, of a non-empty finite family of reals is a real. -/
theorem fold_max_real {ι : Type} [Fintype ι] [Nonempty ι] (g : ι → ℝ) :
    ∃ r : ℝ, (Finset.univ : Finset ι).fold max (⊥ : EReal) (fun m => (g m : EReal)) = r := by
  obtain ⟨i, -, hi⟩ := Finset.exists_mem_eq_sup (Finset.univ : Finset ι) Finset.univ_nonempty (fun m => (g m : EReal))
  exact ⟨g i, hi⟩

end Cert.NormalizedSum

end
-- ==== Proof.SpecLaw.lean ====
/-
  Associativity of the matrix product, on the extended reals with real entries: q · (kᵀ v) = (q · kᵀ) · v.

  Three steps. First, with no hypothesis at all: cutting the 8192 rows into 2 halves of 4 blocks of 1024 and adding
  block by block onto zero is only a regrouping of a finite sum, so the kernel's kᵀv at (d, n) is ∑ₛ k(s, d) · v(s, n).
  Second: a projection of real arrays is the coercion of a real sum, so q, k, v are real-valued. Third, for real q, k,
  v: both sides are coercions of real double sums, and in ℝ the identity is moving q(d) inside the sum over s, moving
  v(s) inside the sum over d, and exchanging the two sums.
-/
import proofs.«107815_j68736656605705_2_alg».proof.Proof.Spec
import proofs.«107815_j68736656605705_2_alg».proof.Proof.LibBlockedSum
import proofs.«107815_j68736656605705_2_alg».proof.Proof.LibNormalizedSum

noncomputable section

open scoped BigOperators

namespace Cert.Spec

open Idealize.ShloMosaic Idealize.ShloMosaic.ValueIdx

/-! ## The rows, regrouped -/

/-- A sum over the 8192 rows is the sum over the 2 halves, the 4 blocks of a half and the 1024 rows of a block:
    row (c, j, r) is (4c + j) · 1024 + r. Only associativity and commutativity of the addition. -/
theorem sum_rows {M : Type*} [AddCommMonoid M] (g : Fin 8192 → M) :
    ∑ c : Fin 2, ∑ j : Fin 4, ∑ r : Fin 1024, g (row c j r) = ∑ s : Fin 8192, g s := by
  -- extend g by zero to the naturals, so that the blocked-sum lemma (stated over ℕ) applies
  let G : ℕ → M := fun h => if hh : h < 8192 then g ⟨h, hh⟩ else 0
  have hG : ∀ s : Fin 8192, G s.val = g s := fun s => dif_pos s.isLt
  have hrow : ∀ (c : Fin 2) (j : Fin 4) (r : Fin 1024), G (1024 * (4 * c.val + j.val) + r.val) = g (row c j r) := by
    intro c j r
    have hlt : 1024 * (4 * c.val + j.val) + r.val < 8192 := by
      have := c.isLt; have := j.isLt; have := r.isLt; omega
    show (if hh : 1024 * (4 * c.val + j.val) + r.val < 8192 then g ⟨_, hh⟩ else 0) = _
    rw [dif_pos hlt]
    exact congrArg g (Fin.ext (by show 1024 * (4 * c.val + j.val) + r.val = (c.val * 4 + j.val) * 1024 + r.val; omega))
  -- the 8 blocks of 1024, then the 2 halves of 4 blocks
  have e1 := BlockedSum.sum_fin_blocks 8 1024 8192 (by norm_num) G
  have e2 := BlockedSum.sum_fin_blocks 2 4 8 (by norm_num) (fun t => ∑ r : Fin 1024, G (1024 * t + r.val))
  rw [Finset.sum_range] at e1 e2
  rw [← Finset.sum_congr rfl fun s _ => hG s, ← e1, ← e2]
  exact Finset.sum_congr rfl fun c _ => Finset.sum_congr rfl fun j _ => Finset.sum_congr rfl fun r _ => (hrow c j r).symm

/-- The kernel's kᵀv — blocks added one after the other onto zero, halves added onto zero — is the plain
    contraction over all rows. No finiteness is needed: only the addition is regrouped. -/
theorem ktv_eq_sum (k v : Fin 8192 → Fin 1024 → EReal) (d n : Fin 1024) :
    ktv k v d n = ∑ s : Fin 8192, k s d * v s n := by
  rw [← sum_rows fun s => k s d * v s n]
  unfold ktv halfKtV blockKtV
  rw [zero_add]
  refine Finset.sum_congr rfl fun c _ => ?_
  rw [Fin.sum_univ_four, zero_add]

/-! ## Real entries -/

/-- A projection of real arrays is the coercion of the real sum. -/
theorem proj_coe (rx : SX.Idx → ℝ) (rw : SW.Idx → ℝ) (s : Fin 8192) (d : Fin 1024) :
    proj (fun i => (rx i : EReal)) (fun i => (rw i : EReal)) s d
      = ((∑ a : Fin 1024, rx (ix2 s a) * rw (ix2 a d) : ℝ) : EReal) := by
  unfold proj
  rw [Cert.NormalizedSum.coe_finsum]
  exact Finset.sum_congr rfl fun a _ => (EReal.coe_mul _ _).symm

/-- Associativity of the product of three real matrices, read at one entry, on the extended reals:
    ∑_d q(d) · (∑ₛ k(s, d) · v(s)) = ∑ₛ (∑_d q(d) · k(s, d)) · v(s). -/
theorem assoc_real {ι κ : Type} [Fintype ι] [Fintype κ] (q : ι → ℝ) (k : κ → ι → ℝ) (v : κ → ℝ) :
    ∑ d, (q d : EReal) * ∑ s, (k s d : EReal) * (v s : EReal)
      = ∑ s, (∑ d, (q d : EReal) * (k s d : EReal)) * (v s : EReal) := by
  have l1 : ∀ d, (q d : EReal) * ∑ s, (k s d : EReal) * (v s : EReal) = ((q d * ∑ s, k s d * v s : ℝ) : EReal) := fun d => by
    rw [EReal.coe_mul, Cert.NormalizedSum.coe_finsum]
    exact congrArg _ (Finset.sum_congr rfl fun s _ => (EReal.coe_mul _ _).symm)
  have r1 : ∀ s, (∑ d, (q d : EReal) * (k s d : EReal)) * (v s : EReal) = (((∑ d, q d * k s d) * v s : ℝ) : EReal) := fun s => by
    rw [EReal.coe_mul, Cert.NormalizedSum.coe_finsum]
    exact congrArg (· * (v s : EReal)) (Finset.sum_congr rfl fun d _ => (EReal.coe_mul _ _).symm)
  rw [Finset.sum_congr rfl fun d _ => l1 d, Finset.sum_congr rfl fun s _ => r1 s,
    ← Cert.NormalizedSum.coe_finsum, ← Cert.NormalizedSum.coe_finsum]
  congr 1
  calc ∑ d, q d * ∑ s, k s d * v s
      = ∑ d, ∑ s, q d * (k s d * v s) := Finset.sum_congr rfl fun d _ => Finset.mul_sum _ _ _
    _ = ∑ s, ∑ d, q d * (k s d * v s) := Finset.sum_comm
    _ = ∑ s, (∑ d, q d * k s d) * v s := Finset.sum_congr rfl fun s _ => by
        rw [Finset.sum_mul]
        exact Finset.sum_congr rfl fun d _ => (mul_assoc _ _ _).symm

/-! ## The two arrangements agree -/

/-- With real entries everywhere, contracting k against v first and multiplying q by the result is multiplying
    the scores q · kᵀ by v. -/
theorem kernelOut_eq_referenceOut (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    kernelOut x wq wk wv = referenceOut x wq wk wv := by
  obtain ⟨rx, rfl⟩ : ∃ rx : SX.Idx → ℝ, x = fun i => (rx i : EReal) :=
    ⟨fun i => (hx i).choose, funext fun i => (hx i).choose_spec⟩
  obtain ⟨rq, rfl⟩ : ∃ rq : SW.Idx → ℝ, wq = fun i => (rq i : EReal) :=
    ⟨fun i => (hq i).choose, funext fun i => (hq i).choose_spec⟩
  obtain ⟨rk, rfl⟩ : ∃ rk : SW.Idx → ℝ, wk = fun i => (rk i : EReal) :=
    ⟨fun i => (hk i).choose, funext fun i => (hk i).choose_spec⟩
  obtain ⟨rv, rfl⟩ : ∃ rv : SW.Idx → ℝ, wv = fun i => (rv i : EReal) :=
    ⟨fun i => (hv i).choose, funext fun i => (hv i).choose_spec⟩
  funext i
  obtain ⟨p, n, rfl⟩ : ∃ (p : Fin 8192) (n : Fin 1024), i = ix2 p n := ⟨i 0, i 1, eq_ix2 i⟩
  rw [kernelOut_apply, referenceOut_apply]
  refine (Finset.sum_congr rfl fun d _ => ?_).trans
    ((assoc_real (fun d : Fin 1024 => ∑ a : Fin 1024, rx (ix2 p a) * rq (ix2 a d))
      (fun (s : Fin 8192) (d : Fin 1024) => ∑ a : Fin 1024, rx (ix2 s a) * rk (ix2 a d))
      (fun s : Fin 8192 => ∑ a : Fin 1024, rx (ix2 s a) * rv (ix2 a n))).trans
      (Finset.sum_congr rfl fun s _ => ?_))
  · rw [ktv_eq_sum, proj_coe]
    exact congrArg _ (Finset.sum_congr rfl fun s _ => by rw [proj_coe, proj_coe])
  · rw [proj_coe]
    exact congrArg (· * _) (Finset.sum_congr rfl fun d _ => by rw [proj_coe, proj_coe])

end Cert.Spec

end
-- ==== Proof.RefValue.lean ====
/-
  The reference program, read entry by entry, is the specification's (q · kᵀ) · v.

  The program forms three projections x·wq, x·wk, x·wv, transposes the second, multiplies the first by that
  transpose (the scores, [8192, 8192]) and the scores by the third. Each product's entry is the sum over the
  contracted axis of the products of the operands' entries; the transpose at (d, s) is its operand at (s, d).
  Composing these readings gives, at (p, n), the sum over the rows s of (∑_d q(p, d) · k(s, d)) · v(s, n).
-/
import proofs.«107815_j68736656605705_2_alg».proof.Proof.Gen.ReferenceIdeal.Read
import proofs.«107815_j68736656605705_2_alg».proof.Proof.Spec

noncomputable section

open scoped BigOperators

namespace Cert.ReferenceIdeal.RefValue

open Cert.ReferenceIdeal Cert.ReferenceIdeal.Read Idealize.ShloMosaic Idealize.ShloMosaic.ValueIdx

/-- A rank-2 index given by a match on the axis is `ix2` of the two coordinates. -/
private theorem idx_eq {n0 n1 : Nat} (j : (⟨2, ![n0, n1]⟩ : Shape).Idx) (a : Fin n0) (b : Fin n1)
    (h0 : j 0 = a) (h1 : j 1 = b) : j = ix2 a b := by
  funext d
  match d with
  | ⟨0, _⟩ => exact h0
  | ⟨1, _⟩ => exact h1

/-- The first projection x·wq at (p, d). -/
theorem v0_at (x0 : (⟨S8192x1024, .f32⟩ : BufTy).Contents (Elt Ideal)) (x1 : (⟨S1024x1024, .f32⟩ : BufTy).Contents (Elt Ideal))
    (p : Fin 8192) (d : Fin 1024) : val_main_v0 (F := Ideal) x0 x1 (ix2 p d) = Cert.Spec.proj x0 x1 p d := by
  rw [val_main_v0_apply]
  unfold Cert.Spec.proj
  refine Finset.sum_congr rfl fun a _ => ?_
  rw [idx_eq (lidx_main_v0 (ix2 p d) a) p a rfl rfl, idx_eq (ridx_main_v0 (ix2 p d) a) a d rfl rfl]

/-- The second projection x·wk at (s, d). -/
theorem v1_at (x0 : (⟨S8192x1024, .f32⟩ : BufTy).Contents (Elt Ideal)) (x2 : (⟨S1024x1024, .f32⟩ : BufTy).Contents (Elt Ideal))
    (s : Fin 8192) (d : Fin 1024) : val_main_v1 (F := Ideal) x0 x2 (ix2 s d) = Cert.Spec.proj x0 x2 s d := by
  rw [val_main_v1_apply]
  unfold Cert.Spec.proj
  refine Finset.sum_congr rfl fun a _ => ?_
  rw [idx_eq (lidx_main_v1 (ix2 s d) a) s a rfl rfl, idx_eq (ridx_main_v1 (ix2 s d) a) a d rfl rfl]

/-- The third projection x·wv at (s, n). -/
theorem v2_at (x0 : (⟨S8192x1024, .f32⟩ : BufTy).Contents (Elt Ideal)) (x3 : (⟨S1024x1024, .f32⟩ : BufTy).Contents (Elt Ideal))
    (s : Fin 8192) (n : Fin 1024) : val_main_v2 (F := Ideal) x0 x3 (ix2 s n) = Cert.Spec.proj x0 x3 s n := by
  rw [val_main_v2_apply]
  unfold Cert.Spec.proj
  refine Finset.sum_congr rfl fun a _ => ?_
  rw [idx_eq (lidx_main_v2 (ix2 s n) a) s a rfl rfl, idx_eq (ridx_main_v2 (ix2 s n) a) a n rfl rfl]

/-- The transposed second projection at (d, s) is x·wk at (s, d). -/
theorem v3_at (x0 : (⟨S8192x1024, .f32⟩ : BufTy).Contents (Elt Ideal)) (x2 : (⟨S1024x1024, .f32⟩ : BufTy).Contents (Elt Ideal))
    (d : Fin 1024) (s : Fin 8192) : val_main_v3 (F := Ideal) x0 x2 (ix2 d s) = Cert.Spec.proj x0 x2 s d := by
  rw [val_main_v3_apply, idx_eq (idx_main_v3 (ix2 d s)) s d rfl rfl, v1_at]

/-- The scores q·kᵀ at (p, s). -/
theorem v4_at (x0 : (⟨S8192x1024, .f32⟩ : BufTy).Contents (Elt Ideal)) (x1 x2 : (⟨S1024x1024, .f32⟩ : BufTy).Contents (Elt Ideal))
    (p s : Fin 8192) :
    val_main_v4 (F := Ideal) x0 x1 x2 (ix2 p s) = ∑ d : Fin 1024, Cert.Spec.proj x0 x1 p d * Cert.Spec.proj x0 x2 s d := by
  rw [val_main_v4_apply]
  refine Finset.sum_congr rfl fun d _ => ?_
  rw [idx_eq (lidx_main_v4 (ix2 p s) d) p d rfl rfl, idx_eq (ridx_main_v4 (ix2 p s) d) d s rfl rfl, v0_at, v3_at]

/-- The reference program's result is (q · kᵀ) · v. -/
theorem reference_eq (x0 : (⟨S8192x1024, .f32⟩ : BufTy).Contents (Elt Ideal)) (x1 x2 x3 : (⟨S1024x1024, .f32⟩ : BufTy).Contents (Elt Ideal)) :
    val_main_v5 (F := Ideal) x0 x1 x2 x3 = Cert.Spec.referenceOut x0 x1 x2 x3 := by
  funext i
  obtain ⟨p, n, rfl⟩ : ∃ (p : Fin 8192) (n : Fin 1024), i = ix2 p n := ⟨i 0, i 1, eq_ix2 i⟩
  rw [Cert.Spec.referenceOut_apply, val_main_v5_apply]
  refine Finset.sum_congr rfl fun s _ => ?_
  rw [idx_eq (lidx_main_v5 (ix2 p n) s) p s rfl rfl, idx_eq (ridx_main_v5 (ix2 p n) s) s n rfl rfl, v4_at, v2_at]

end Cert.ReferenceIdeal.RefValue

end
-- ==== Proof.Finite.lean ====
/-
  Finite inputs are real.

  The precondition says, of each of the four argument arrays, that every entry's absolute value is below +∞:
  the conjunction of four "all entries" tests, each a reduction by `and` of the entrywise comparison
  |a(i)| < +∞, the bound being the f32 word 0x7F800000 (an all-ones exponent with a zero fraction: +∞).
  On the extended reals |x| = max x (−x) < ⊤ rules out both infinities, so every entry is a real number.
-/
import proofs.«107815_j68736656605705_2_alg».proof.Pre_finite_inputs
import proofs.«107815_j68736656605705_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value is below +∞ is a real. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One "all entries are finite" test: if the reduction by `and` of the comparisons |a(i)| < +∞ is 1, every entry is real. -/
theorem real_of_all {s : Shape} {axes : List (Fin s.rank)} (dims : Fin S_.rank → Fin s.rank) (bc : S_.BroadcastsInDim s dims)
    (rd : s.ReducesTo axes S_) (hu : 0 < S_.numel) (a : FVec Ideal s .f32) (init : IVec S_ 1)
    (e : Host.reduce IntOp.andi (cmpf .olt (Host.absf a) (broadcastInDim s dims bc (constant (F := Ideal) S_ .f32 0x7F800000#32))) init rd hu ix0 = 1#1)
    (i : s.Idx) : ∃ r : ℝ, a i = (r : EReal) := by
  have h := Host.reduce_andi_all _ init rd hu ix0 e i
  rw [cmpf_apply, broadcastInDim_apply dims bc _ i ix0 (fun d => d.elim0), constant_apply, inf_word] at h
  refine real_of_abs_lt_top (a i) ?_
  by_contra hn
  have : FloatOps.cmpf (F := Ideal) .olt (Host.absf a i) (⊤ : EReal) = 0#1 := by
    show BitVec.ofBool (decide (max (a i) (-(a i)) < (⊤ : EReal))) = 0#1
    rw [decide_eq_false hn]; rfl
  rw [this] at h
  exact absurd h (by decide)

/-- The precondition gives: every entry of each of the four arguments is a real number. -/
theorem real_of_pre (a0 : (⟨S8192x1024, .f32⟩ : BufTy).Contents (Elt Ideal)) (a1 a2 a3 : (⟨S1024x1024, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all _ _ _ _ a0 _ h0', real_of_all _ _ _ _ a1 _ h1, real_of_all _ _ _ _ a2 _ h2, real_of_all _ _ _ _ a3 _ h3⟩

end Cert.Finite

end
-- ==== Proof.lean ====
/-
  Attention without the softmax: the kernel's q·(kᵀv) against the reference's (q·kᵀ)·v.

  The kernel never forms the 8192 × 8192 score matrix. Three kernel regions and a little host arithmetic compute
  K = x·wk and V = x·wv block by block, then kᵀv half by half (each half's four blocks accumulated in a buffer the
  region keeps between grid points), add the two halves, and finally ((block of x)·wq)·(kᵀv). The reference computes
  q·kᵀ and multiplies by v.

  The frames: each kernel program is read as a run of five segments (host conversions, three regions, the sum of the
  halves), every region as a segment record built from its proof data and its body's obligation at every grid point;
  the run ends with every unscoped buffer at contents named by a fold from the launch memory, and no argument array is
  ever written. The reference has no kernel: its frame is its run with the result dropped.

  The values, on the extended reals: the fold read at the result array is q·(kᵀv) of the argument arrays, entry by
  entry (each matrix product into a zero accumulator is a plain finite sum; a change of float format is the identity);
  the reference's term is (q·kᵀ)·v; and the two agree because, the inputs being finite, every entry is a real number,
  where moving a factor across a finite sum and exchanging two finite sums are allowed. The ideal pass rewrote
  nothing, so the kernel's idealization is its own text and that conjunct is trivial.
-/
import proofs.«107815_j68736656605705_2_alg».proof.Defs
import proofs.«107815_j68736656605705_2_alg».proof.Proof.Gen.Kernel
import proofs.«107815_j68736656605705_2_alg».proof.Proof.Gen.KernelIdeal
import proofs.«107815_j68736656605705_2_alg».proof.Proof.Gen.ReferenceIdeal
import proofs.«107815_j68736656605705_2_alg».proof.Proof.Gen.Pre_finite_inputs
import proofs.«107815_j68736656605705_2_alg».proof.Proof.Gen.ReferenceIdeal.Run
import proofs.«107815_j68736656605705_2_alg».proof.Proof.Gen.ReferenceIdeal.Read
import proofs.«107815_j68736656605705_2_alg».proof.Proof.K.MainRun
import proofs.«107815_j68736656605705_2_alg».proof.Proof.KI.MainRun
import proofs.«107815_j68736656605705_2_alg».proof.Proof.KI.Val0
import proofs.«107815_j68736656605705_2_alg».proof.Proof.KI.Val1
import proofs.«107815_j68736656605705_2_alg».proof.Proof.KI.Val2
import proofs.«107815_j68736656605705_2_alg».proof.Proof.KI.KernelValue
import proofs.«107815_j68736656605705_2_alg».proof.Proof.SpecLaw
import proofs.«107815_j68736656605705_2_alg».proof.Proof.RefValue
import proofs.«107815_j68736656605705_2_alg».proof.Proof.Finite
import Idealize.ShloMosaic.Adequacy
import Idealize.ShloMosaic.Init

noncomputable section

namespace Cert.Proof

open Idealize.ShloMosaic Idealize.SL.Sem

/-- The kernel as printed runs to the end, faults nowhere, and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories agreeing on finite arguments, both programs end with q·(kᵀv) of the
    arguments in their result array: the kernel by the fold read at the result, the reference by its term being
    (q·kᵀ)·v, which is q·(kᵀv) on real entries. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c =>
      ⟨(h c Cert.KernelIdeal.main_v7 (by decide)).trans
          (Cert.KernelIdeal.Hand.result_eq (fun V c => Cert.KernelIdeal.Hand.final1_2 V c) m ρ c),
        (h c Cert.KernelIdeal.main_arg0 (by decide)).trans (Cert.KernelIdeal.Hand.W5_main_arg0 m ρ c),
        (h c Cert.KernelIdeal.main_arg1 (by decide)).trans (Cert.KernelIdeal.Hand.W5_main_arg1 m ρ c),
        (h c Cert.KernelIdeal.main_arg2 (by decide)).trans (Cert.KernelIdeal.Hand.W5_main_arg2 m ρ c),
        (h c Cert.KernelIdeal.main_arg3 (by decide)).trans (Cert.KernelIdeal.Hand.W5_main_arg3 m ρ c)⟩)
      (Cert.KernelIdeal.Hand.run_all (F := Ideal) m ρ)
  · refine (θ_run Cert.ReferenceIdeal.defs _ _).mono (fun r h c => ⟨?_, (h c).2⟩) (Cert.ReferenceIdeal.Value.run (F := Ideal) m' ρ')
    obtain ⟨h0, h1, h2, h3⟩ := Cert.Finite.real_of_pre _ _ _ _ (hpre c)
    rw [(h c).1, (hagree c).1, (hagree c).2.1, (hagree c).2.2.1, (hagree c).2.2.2, Cert.ReferenceIdeal.Read.val_main_v5_eq,
      Cert.ReferenceIdeal.RefValue.reference_eq]
    exact (Cert.Spec.kernelOut_eq_referenceOut _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
